-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x25 : Shape := ⟨2, ![1048576, 25]⟩
abbrev S64x25 : Shape := ⟨2, ![64, 25]⟩
abbrev S64 : Shape := ⟨1, ![64]⟩
abbrev S192x64 : Shape := ⟨2, ![192, 64]⟩
abbrev S192 : Shape := ⟨1, ![192]⟩
abbrev S6x64 : Shape := ⟨2, ![6, 64]⟩
abbrev S6 : Shape := ⟨1, ![6]⟩
abbrev S1x1048576x64 : Shape := ⟨3, ![1, 1048576, 64]⟩
abbrev S_ : Shape := ⟨0, ![]⟩

class Facts : Prop where
  bcast_S_S1048576x25 : S_.BroadcastsInDim S1048576x25 (![] : Fin 0 → Fin S1048576x25.rank)
  reducesTo_S1048576x25_S_d0_1 : S1048576x25.ReducesTo [0, 1] S_
  h_S_ : 0 < S_.numel
  bcast_S_S64x25 : S_.BroadcastsInDim S64x25 (![] : Fin 0 → Fin S64x25.rank)
  reducesTo_S64x25_S_d0_1 : S64x25.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S6x64 : S_.BroadcastsInDim S6x64 (![] : Fin 0 → Fin S6x64.rank)
  reducesTo_S6x64_S_d0_1 : S6x64.ReducesTo [0, 1] S_
  bcast_S_S6 : S_.BroadcastsInDim S6 (![] : Fin 0 → Fin S6.rank)
  reducesTo_S6_S_d0 : S6.ReducesTo [0] S_
  bcast_S_S1x1048576x64 : S_.BroadcastsInDim S1x1048576x64 (![] : Fin 0 → Fin S1x1048576x64.rank)
  reducesTo_S1x1048576x64_S_d0_1_2 : S1x1048576x64.ReducesTo [0, 1, 2] S_

variable [Facts]

def fn_part2 {F : FTy → Type} [FloatOps F] (main_arg7 : FVec F S6x64 .f32) (main_arg8 : FVec F S6 .f32) (main_arg9 : FVec F S1x1048576x64 .f32) (main_v33 : IVec S_ 1) : IVec S_ 1 :=
  let main_v34 : FVec F S6x64 .f32 := Host.absf main_arg7
  let main_cst_12 : FVec F S_ .f32 := constant S_ .f32 0x7F800000#32
  let main_v35 : FVec F S6x64 .f32 := broadcastInDim S6x64 ![] bcast_S_S6x64 main_cst_12
  let main_v36 : IVec S6x64 1 := cmpf .olt main_v34 main_v35
  let main_c_13 : IVec S_ 1 := constantI S_ 1 1#1
  let main_v37 : IVec S_ 1 := (fun x v => Host.reduce IntOp.andi x v reducesTo_S6x64_S_d0_1 h_S_) main_v36 main_c_13
  let main_v38 : IVec S_ 1 := andi main_v33 main_v37
  let main_v39 : FVec F S6 .f32 := Host.absf main_arg8
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  let main_v44 : FVec F S1x1048576x64 .f32 := Host.absf main_arg9
  let main_cst_16 : FVec F S_ .f32 := constant S_ .f32 0x7F800000#32
  let main_v45 : FVec F S1x1048576x64 .f32 := broadcastInDim S1x1048576x64 ![] bcast_S_S1x1048576x64 main_cst_16
  let main_v46 : IVec S1x1048576x64 1 := cmpf .olt main_v44 main_v45
  let main_c_17 : IVec S_ 1 := constantI S_ 1 1#1
  let main_v47 : IVec S_ 1 := (fun x v => Host.reduce IntOp.andi x v reducesTo_S1x1048576x64_S_d0_1_2 h_S_) main_v46 main_c_17
  let main_v48 : IVec S_ 1 := andi main_v43 main_v47
  main_v48

def fn_part1 {F : FTy → Type} [FloatOps F] (main_arg4 : FVec F S192x64 .f32) (main_arg5 : FVec F S192 .f32) (main_arg6 : FVec F S192 .f32) (main_arg7 : FVec F S6x64 .f32) (main_arg8 : FVec F S6 .f32) (main_arg9 : FVec F S1x1048576x64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192x64 .f32 := Host.absf main_arg4
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192 .f32 := Host.absf main_arg5
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S192 .f32 := Host.absf main_arg6
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg7 main_arg8 main_arg9 main_v33

def fn {F : FTy → Type} [FloatOps F] (main_arg0 : FVec F S1048576x25 .f32) (main_arg1 : FVec F S64x25 .f32) (main_arg2 : FVec F S64 .f32) (main_arg3 : FVec F S192x64 .f32) (main_arg4 : FVec F S192x64 .f32) (main_arg5 : FVec F S192 .f32) (main_arg6 : FVec F S192 .f32) (main_arg7 : FVec F S6x64 .f32) (main_arg8 : FVec F S6 .f32) (main_arg9 : FVec F S1x1048576x64 .f32) : IVec S_ 1 :=
  let main_v0 : FVec F S1048576x25 .f32 := Host.absf main_arg0
  let main_cst : FVec F S_ .f32 := constant S_ .f32 0x7F800000#32
  let main_v1 : FVec F S1048576x25 .f32 := broadcastInDim S1048576x25 ![] bcast_S_S1048576x25 main_cst
  let main_v2 : IVec S1048576x25 1 := cmpf .olt main_v0 main_v1
  let main_c : IVec S_ 1 := constantI S_ 1 1#1
  let main_v3 : IVec S_ 1 := (fun x v => Host.reduce IntOp.andi x v reducesTo_S1048576x25_S_d0_1 h_S_) main_v2 main_c
  let main_v4 : FVec F S64x25 .f32 := Host.absf main_arg1
  let main_cst_0 : FVec F S_ .f32 := constant S_ .f32 0x7F800000#32
  let main_v5 : FVec F S64x25 .f32 := broadcastInDim S64x25 ![] bcast_S_S64x25 main_cst_0
  let main_v6 : IVec S64x25 1 := cmpf .olt main_v4 main_v5
  let main_c_1 : IVec S_ 1 := constantI S_ 1 1#1
  let main_v7 : IVec S_ 1 := (fun x v => Host.reduce IntOp.andi x v reducesTo_S64x25_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S192x64 .f32 := Host.absf main_arg3
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg4 main_arg5 main_arg6 main_arg7 main_arg8 main_arg9 main_v13 main_v16
-- ==== Kernel.lean ====
abbrev S1048576x25 : Shape := ⟨2, ![1048576, 25]⟩
abbrev S64x25 : Shape := ⟨2, ![64, 25]⟩
abbrev S64 : Shape := ⟨1, ![64]⟩
abbrev S192x64 : Shape := ⟨2, ![192, 64]⟩
abbrev S192 : Shape := ⟨1, ![192]⟩
abbrev S6x64 : Shape := ⟨2, ![6, 64]⟩
abbrev S6 : Shape := ⟨1, ![6]⟩
abbrev S1x1048576x64 : Shape := ⟨3, ![1, 1048576, 64]⟩
abbrev S25x64 : Shape := ⟨2, ![25, 64]⟩
abbrev S64x192 : Shape := ⟨2, ![64, 192]⟩
abbrev S64x6 : Shape := ⟨2, ![64, 6]⟩
abbrev S1x64 : Shape := ⟨2, ![1, 64]⟩
abbrev S1x192 : Shape := ⟨2, ![1, 192]⟩
abbrev S1x6 : Shape := ⟨2, ![1, 6]⟩
abbrev S1x1048576x6 : Shape := ⟨3, ![1, 1048576, 6]⟩
abbrev S2048x25 : Shape := ⟨2, ![2048, 25]⟩
abbrev S1x2048x64 : Shape := ⟨3, ![1, 2048, 64]⟩
abbrev S1x2048x6 : Shape := ⟨3, ![1, 2048, 6]⟩
abbrev S2048x64 : Shape := ⟨2, ![2048, 64]⟩
abbrev S2048x192 : Shape := ⟨2, ![2048, 192]⟩
abbrev S2048x6 : Shape := ⟨2, ![2048, 6]⟩
abbrev S2048 : Shape := ⟨1, ![2048]⟩
abbrev S2048x1 : Shape := ⟨2, ![2048, 1]⟩

abbrev nBuf : Space → Nat
  | .hbm => 23
  | .vmem => 14
  | .smem => 0
  | _ => 0

abbrev bufTy : (tb : Table) → Fin (tcTables nBuf tb) → BufTy
  | .hbm, ⟨0, _⟩ => ⟨S1048576x25, .f32⟩
  | .hbm, ⟨1, _⟩ => ⟨S64x25, .f32⟩
  | .hbm, ⟨2, _⟩ => ⟨S64, .f32⟩
  | .hbm, ⟨3, _⟩ => ⟨S192x64, .f32⟩
  | .hbm, ⟨4, _⟩ => ⟨S192x64, .f32⟩
  | .hbm, ⟨5, _⟩ => ⟨S192, .f32⟩
  | .hbm, ⟨6, _⟩ => ⟨S192, .f32⟩
  | .hbm, ⟨7, _⟩ => ⟨S6x64, .f32⟩
  | .hbm, ⟨8, _⟩ => ⟨S6, .f32⟩
  | .hbm, ⟨9, _⟩ => ⟨S1x1048576x64, .f32⟩
  | .hbm, ⟨10, _⟩ => ⟨S25x64, .f32⟩
  | .hbm, ⟨11, _⟩ => ⟨S25x64, .bf16⟩
  | .hbm, ⟨12, _⟩ => ⟨S64x192, .f32⟩
  | .hbm, ⟨13, _⟩ => ⟨S64x192, .bf16⟩
  | .hbm, ⟨14, _⟩ => ⟨S64x192, .f32⟩
  | .hbm, ⟨15, _⟩ => ⟨S64x192, .bf16⟩
  | .hbm, ⟨16, _⟩ => ⟨S64x6, .f32⟩
  | .hbm, ⟨17, _⟩ => ⟨S64x6, .bf16⟩
  | .hbm, ⟨18, _⟩ => ⟨S1x64, .f32⟩
  | .hbm, ⟨19, _⟩ => ⟨S1x192, .f32⟩
  | .hbm, ⟨20, _⟩ => ⟨S1x192, .f32⟩
  | .hbm, ⟨21, _⟩ => ⟨S1x6, .f32⟩
  | .hbm, ⟨22, _⟩ => ⟨S1x1048576x6, .f32⟩
  | .local _ .vmem, ⟨0, _⟩ => ⟨S2048x25, .f32⟩
  | .local _ .vmem, ⟨1, _⟩ => ⟨S2048x25, .f32⟩
  | .local _ .vmem, ⟨2, _⟩ => ⟨S1x2048x64, .f32⟩
  | .local _ .vmem, ⟨3, _⟩ => ⟨S1x2048x64, .f32⟩
  | .local _ .vmem, ⟨4, _⟩ => ⟨S25x64, .bf16⟩
  | .local _ .vmem, ⟨5, _⟩ => ⟨S1x64, .f32⟩
  | .local _ .vmem, ⟨6, _⟩ => ⟨S64x192, .bf16⟩
  | .local _ .vmem, ⟨7, _⟩ => ⟨S64x192, .bf16⟩
  | .local _ .vmem, ⟨8, _⟩ => ⟨S1x192, .f32⟩
  | .local _ .vmem, ⟨9, _⟩ => ⟨S1x192, .f32⟩
  | .local _ .vmem, ⟨10, _⟩ => ⟨S64x6, .bf16⟩
  | .local _ .vmem, ⟨11, _⟩ => ⟨S1x6, .f32⟩
  | .local _ .vmem, ⟨12, _⟩ => ⟨S1x2048x6, .f32⟩
  | .local _ .vmem, ⟨13, _⟩ => ⟨S1x2048x6, .f32⟩
  | _, _ => ⟨S1048576x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S25x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x6 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x2048x6 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S64x25_S25x64_1_0 : S64x25.Transposes [1, 0] S25x64
  bitsLt_bf16_f32 : FTy.bits .bf16 < FTy.bits .f32
  transposes_S192x64_S64x192_1_0 : S192x64.Transposes [1, 0] S64x192
  transposes_S6x64_S64x6_1_0 : S6x64.Transposes [1, 0] S64x6
  shapeCasts_S64_S1x64 : S64.ShapeCasts S1x64
  shapeCasts_S192_S1x192 : S192.ShapeCasts S1x192
  shapeCasts_S6_S1x6 : S6.ShapeCasts S1x6
  inb_S2048x25_S2048x25_0_0 : ∀ a, (![0, 0] : Fin 2 → Nat) a + S2048x25.size a ≤ S2048x25.size a
  h_S2048x25 : 0 < S2048x25.numel
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S25x64_S25x64_0_0 : ∀ a, (![0, 0] : Fin 2 → Nat) a + S25x64.size a ≤ S25x64.size a
  h_S25x64 : 0 < S25x64.numel
  shapeCasts_S25x64_S25x64 : S25x64.ShapeCasts S25x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  inb_S64x6_S64x6_0_0 : ∀ a, (![0, 0] : Fin 2 → Nat) a + S64x6.size a ≤ S64x6.size a
  h_S64x6 : 0 < S64x6.numel
  shapeCasts_S64x6_S64x6 : S64x6.ShapeCasts S64x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x64_S2048x64 : S1x64.Broadcasts S2048x64
  broadcasts_S1x192_S2048x192 : S1x192.Broadcasts S2048x192
  slices_S2048x192_o0_0_S2048x64 : S2048x192.Slices ![0, 0] S2048x64
  slices_S2048x192_o0_64_S2048x64 : S2048x192.Slices ![0, 64] S2048x64
  slices_S2048x192_o0_128_S2048x64 : S2048x192.Slices ![0, 128] S2048x64
  broadcasts_S1x6_S2048x6 : S1x6.Broadcasts S2048x6
  reduces_S2048x6_S2048 : S2048x6.Reduces [1] S2048
  shapeCasts_S2048_S2048x1 : S2048.ShapeCasts S2048x1
  broadcasts_S2048x1_S2048x6 : S2048x1.Broadcasts S2048x6
  inb_S1x2048x6_S1x2048x6_0_0_0 : ∀ a, (![0, 0, 0] : Fin 3 → Nat) a + S1x2048x6.size a ≤ S1x2048x6.size a
  h_S1x2048x6 : 0 < S1x2048x6.numel
  shapeCasts_S1x2048x6_S2048x6 : S1x2048x6.ShapeCasts S2048x6
  shapeCasts_S2048x6_S1x2048x6 : S2048x6.ShapeCasts S1x2048x6
  dot_S2048x25_S25x64_S2048x64_1_0_0_1_n_n_wf : DotDims.WF S2048x25 S25x64 S2048x64 [1] [0] [0] [1] [] []
  dot_S2048x64_S64x192_S2048x192_1_0_0_1_n_n_wf : DotDims.WF S2048x64 S64x192 S2048x192 [1] [0] [0] [1] [] []
  dot_S2048x64_S64x6_S2048x6_1_0_0_1_n_n_wf : DotDims.WF S2048x64 S64x6 S2048x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x25.size a ≤ S1048576x25.size a
  hwx0_0 : ∀ i : grid0.Coords, EltTy.bits .f32 = 32 ∨ (Rect.block (s := S1048576x25) S2048x25.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S1x1048576x64.size a
  hwx0_1 : ∀ i : grid0.Coords, EltTy.bits .f32 = 32 ∨ (Rect.block (s := S1x1048576x64) S1x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S25x64.size a ≤ S25x64.size a
  hwx0_2 : ∀ i : grid0.Coords, EltTy.bits .bf16 = 32 ∨ (Rect.block (s := S25x64) S25x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x192.size a ≤ S64x192.size a
  hwx0_4 : ∀ i : grid0.Coords, EltTy.bits .bf16 = 32 ∨ (Rect.block (s := S64x192) S64x192.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x192.size a ≤ S64x192.size a
  hwx0_5 : ∀ i : grid0.Coords, EltTy.bits .bf16 = 32 ∨ (Rect.block (s := S64x192) S64x192.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x192.size a ≤ S1x192.size a
  hwx0_6 : ∀ i : grid0.Coords, EltTy.bits .f32 = 32 ∨ (Rect.block (s := S1x192) S1x192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x192.size a ≤ S1x192.size a
  hwx0_7 : ∀ i : grid0.Coords, EltTy.bits .f32 = 32 ∨ (Rect.block (s := S1x192) S1x192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x6.size a ≤ S64x6.size a
  hwx0_8 : ∀ i : grid0.Coords, EltTy.bits .bf16 = 32 ∨ (Rect.block (s := S64x6) S64x6.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x6.size a ≤ S1x6.size a
  hwx0_9 : ∀ i : grid0.Coords, EltTy.bits .f32 = 32 ∨ (Rect.block (s := S1x6) S1x6.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x2048x6.size a ≤ S1x1048576x6.size a
  hwx0_10 : ∀ i : grid0.Coords, EltTy.bits .f32 = 32 ∨ (Rect.block (s := S1x1048576x6) S1x2048x6.size (cc0_transform_10 i) (hinb0_10 i)).WholeWords (EltTy.packing .f32)

variable [Facts₀]

def dot_S2048x25_S25x64_S2048x64_1_0_0_1_n_n : DotDims S2048x25 S25x64 S2048x64 where
  lhsContracting := [1]
  rhsContracting := [0]
  lhsNonContracting := [0]
  rhsNonContracting := [1]
  lhsBatch := []
  rhsBatch := []
  wf := dot_S2048x25_S25x64_S2048x64_1_0_0_1_n_n_wf
def dot_S2048x64_S64x192_S2048x192_1_0_0_1_n_n : DotDims S2048x64 S64x192 S2048x192 where
  lhsContracting := [1]
  rhsContracting := [0]
  lhsNonContracting := [0]
  rhsNonContracting := [1]
  lhsBatch := []
  rhsBatch := []
  wf := dot_S2048x64_S64x192_S2048x192_1_0_0_1_n_n_wf
def dot_S2048x64_S64x6_S2048x6_1_0_0_1_n_n : DotDims S2048x64 S64x6 S2048x6 where
  lhsContracting := [1]
  rhsContracting := [0]
  lhsNonContracting := [0]
  rhsNonContracting := [1]
  lhsBatch := []
  rhsBatch := []
  wf := dot_S2048x64_S64x6_S2048x6_1_0_0_1_n_n_wf

abbrev win0_0 : Pipeline.Window sig grid0 :=
  Pipeline.Window.ofSpec (Memref.whole main_arg0) S2048x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S25x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S64x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S64x6.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x6.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x2048x6.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1048576x25 : Shape := ⟨2, ![1048576, 25]⟩
abbrev S64x25 : Shape := ⟨2, ![64, 25]⟩
abbrev S64 : Shape := ⟨1, ![64]⟩
abbrev S192x64 : Shape := ⟨2, ![192, 64]⟩
abbrev S192 : Shape := ⟨1, ![192]⟩
abbrev S6x64 : Shape := ⟨2, ![6, 64]⟩
abbrev S6 : Shape := ⟨1, ![6]⟩
abbrev S1x1048576x64 : Shape := ⟨3, ![1, 1048576, 64]⟩
abbrev S25x64 : Shape := ⟨2, ![25, 64]⟩
abbrev S1048576x64 : Shape := ⟨2, ![1048576, 64]⟩
abbrev S1x64 : Shape := ⟨2, ![1, 64]⟩
abbrev S64x192 : Shape := ⟨2, ![64, 192]⟩
abbrev S1048576x192 : Shape := ⟨2, ![1048576, 192]⟩
abbrev S1x192 : Shape := ⟨2, ![1, 192]⟩
abbrev S_ : Shape := ⟨0, ![]⟩
abbrev S64x6 : Shape := ⟨2, ![64, 6]⟩
abbrev S1048576x6 : Shape := ⟨2, ![1048576, 6]⟩
abbrev S1x6 : Shape := ⟨2, ![1, 6]⟩
abbrev S1048576 : Shape := ⟨1, ![1048576]⟩
abbrev S1048576x1 : Shape := ⟨2, ![1048576, 1]⟩
abbrev S1x1048576x6 : Shape := ⟨3, ![1, 1048576, 6]⟩

abbrev nBuf : Space → Nat
  | .hbm => 79
  | .vmem => 0
  | .smem => 0
  | _ => 0

abbrev bufTy : (tb : Table) → Fin (tcTables nBuf tb) → BufTy
  | .hbm, ⟨0, _⟩ => ⟨S1048576x25, .f32⟩
  | .hbm, ⟨1, _⟩ => ⟨S64x25, .f32⟩
  | .hbm, ⟨2, _⟩ => ⟨S64, .f32⟩
  | .hbm, ⟨3, _⟩ => ⟨S192x64, .f32⟩
  | .hbm, ⟨4, _⟩ => ⟨S192x64, .f32⟩
  | .hbm, ⟨5, _⟩ => ⟨S192, .f32⟩
  | .hbm, ⟨6, _⟩ => ⟨S192, .f32⟩
  | .hbm, ⟨7, _⟩ => ⟨S6x64, .f32⟩
  | .hbm, ⟨8, _⟩ => ⟨S6, .f32⟩
  | .hbm, ⟨9, _⟩ => ⟨S1x1048576x64, .f32⟩
  | .hbm, ⟨10, _⟩ => ⟨S25x64, .f32⟩
  | .hbm, ⟨11, _⟩ => ⟨S1048576x64, .f32⟩
  | .hbm, ⟨12, _⟩ => ⟨S1x64, .f32⟩
  | .hbm, ⟨13, _⟩ => ⟨S1048576x64, .f32⟩
  | .hbm, ⟨14, _⟩ => ⟨S1048576x64, .f32⟩
  | .hbm, ⟨15, _⟩ => ⟨S1048576x64, .f32⟩
  | .hbm, ⟨16, _⟩ => ⟨S64x192, .f32⟩
  | .hbm, ⟨17, _⟩ => ⟨S1048576x192, .f32⟩
  | .hbm, ⟨18, _⟩ => ⟨S1x192, .f32⟩
  | .hbm, ⟨19, _⟩ => ⟨S1048576x192, .f32⟩
  | .hbm, ⟨20, _⟩ => ⟨S1048576x192, .f32⟩
  | .hbm, ⟨21, _⟩ => ⟨S64x192, .f32⟩
  | .hbm, ⟨22, _⟩ => ⟨S1048576x192, .f32⟩
  | .hbm, ⟨23, _⟩ => ⟨S1x192, .f32⟩
  | .hbm, ⟨24, _⟩ => ⟨S1048576x192, .f32⟩
  | .hbm, ⟨25, _⟩ => ⟨S1048576x192, .f32⟩
  | .hbm, ⟨26, _⟩ => ⟨S1048576x64, .f32⟩
  | .hbm, ⟨27, _⟩ => ⟨S1048576x64, .f32⟩
  | .hbm, ⟨28, _⟩ => ⟨S1048576x64, .f32⟩
  | .hbm, ⟨29, _⟩ => ⟨S1048576x64, .f32⟩
  | .hbm, ⟨30, _⟩ => ⟨S1048576x64, .f32⟩
  | .hbm, ⟨31, _⟩ => ⟨S1048576x64, .f32⟩
  | .hbm, ⟨32, _⟩ => ⟨S1048576x64, .f32⟩
  | .hbm, ⟨33, _⟩ => ⟨S1048576x64, .f32⟩
  | .hbm, ⟨34, _⟩ => ⟨S1048576x64, .f32⟩
  | .hbm, ⟨35, _⟩ => ⟨S_, .f32⟩
  | .hbm, ⟨36, _⟩ => ⟨S1048576x64, .f32⟩
  | .hbm, ⟨37, _⟩ => ⟨S1048576x64, .f32⟩
  | .hbm, ⟨38, _⟩ => ⟨S_, .f32⟩
  | .hbm, ⟨39, _⟩ => ⟨S1048576x64, .f32⟩
  | .hbm, ⟨40, _⟩ => ⟨S1048576x64, .f32⟩
  | .hbm, ⟨41, _⟩ => ⟨S1048576x64, .f32⟩
  | .hbm, ⟨42, _⟩ => ⟨S1048576x64, .f32⟩
  | .hbm, ⟨43, _⟩ => ⟨S1048576x64, .f32⟩
  | .hbm, ⟨44, _⟩ => ⟨S_, .f32⟩
  | .hbm, ⟨45, _⟩ => ⟨S1048576x64, .f32⟩
  | .hbm, ⟨46, _⟩ => ⟨S1048576x64, .f32⟩
  | .hbm, ⟨47, _⟩ => ⟨S_, .f32⟩
  | .hbm, ⟨48, _⟩ => ⟨S1048576x64, .f32⟩
  | .hbm, ⟨49, _⟩ => ⟨S1048576x64, .f32⟩
  | .hbm, ⟨50, _⟩ => ⟨S1048576x64, .f32⟩
  | .hbm, ⟨51, _⟩ => ⟨S1048576x64, .f32⟩
  | .hbm, ⟨52, _⟩ => ⟨S1048576x64, .f32⟩
  | .hbm, ⟨53, _⟩ => ⟨S_, .f32⟩
  | .hbm, ⟨54, _⟩ => ⟨S1048576x64, .f32⟩
  | .hbm, ⟨55, _⟩ => ⟨S1048576x64, .f32⟩
  | .hbm, ⟨56, _⟩ => ⟨S1048576x64, .f32⟩
  | .hbm, ⟨57, _⟩ => ⟨S1048576x64, .f32⟩
  | .hbm, ⟨58, _⟩ => ⟨S1048576x64, .f32⟩
  | .hbm, ⟨59, _⟩ => ⟨S64x6, .f32⟩
  | .hbm, ⟨60, _⟩ => ⟨S1048576x6, .f32⟩
  | .hbm, ⟨61, _⟩ => ⟨S1x6, .f32⟩
  | .hbm, ⟨62, _⟩ => ⟨S1048576x6, .f32⟩
  | .hbm, ⟨63, _⟩ => ⟨S1048576x6, .f32⟩
  | .hbm, ⟨64, _⟩ => ⟨S_, .f32⟩
  | .hbm, ⟨65, _⟩ => ⟨S1048576, .f32⟩
  | .hbm, ⟨66, _⟩ => ⟨S_, .f32⟩
  | .hbm, ⟨67, _⟩ => ⟨S1048576, .f32⟩
  | .hbm, ⟨68, _⟩ => ⟨S1048576, .f32⟩
  | .hbm, ⟨69, _⟩ => ⟨S1048576x1, .f32⟩
  | .hbm, ⟨70, _⟩ => ⟨S1048576x6, .f32⟩
  | .hbm, ⟨71, _⟩ => ⟨S1048576x6, .f32⟩
  | .hbm, ⟨72, _⟩ => ⟨S1048576x6, .f32⟩
  | .hbm, ⟨73, _⟩ => ⟨S_, .f32⟩
  | .hbm, ⟨74, _⟩ => ⟨S1048576, .f32⟩
  | .hbm, ⟨75, _⟩ => ⟨S1048576x1, .f32⟩
  | .hbm, ⟨76, _⟩ => ⟨S1048576x6, .f32⟩
  | .hbm, ⟨77, _⟩ => ⟨S1048576x6, .f32⟩
  | .hbm, ⟨78, _⟩ => ⟨S1x1048576x6, .f32⟩
  | _, _ => ⟨S1048576x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_cst_0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]

class Facts₀ : Prop where
  transposes_S64x25_S25x64_1_0 : S64x25.Transposes [1, 0] S25x64
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  shapeCasts_S1x1048576x64_S1048576x64 : S1x1048576x64.ShapeCasts S1048576x64
  transposes_S192x64_S64x192_1_0 : S192x64.Transposes [1, 0] S64x192
  bcast_S192_S1x192_1 : S192.BroadcastsInDim S1x192 (![1] : Fin 1 → Fin S1x192.rank)
  bcast_S1x192_S1048576x192_0_1 : S1x192.BroadcastsInDim S1048576x192 (![0, 1] : Fin 2 → Fin S1048576x192.rank)
  slices_S1048576x192_S1048576x64_0_0 : S1048576x192.Slices ![0, 0] S1048576x64
  slices_S1048576x192_S1048576x64_0_64 : S1048576x192.Slices ![0, 64] S1048576x64
  slices_S1048576x192_S1048576x64_0_128 : S1048576x192.Slices ![0, 128] S1048576x64
  bcast_S_S1048576x64 : S_.BroadcastsInDim S1048576x64 (![] : Fin 0 → Fin S1048576x64.rank)
  transposes_S6x64_S64x6_1_0 : S6x64.Transposes [1, 0] S64x6
  bcast_S6_S1x6_1 : S6.BroadcastsInDim S1x6 (![1] : Fin 1 → Fin S1x6.rank)
  bcast_S1x6_S1048576x6_0_1 : S1x6.BroadcastsInDim S1048576x6 (![0, 1] : Fin 2 → Fin S1048576x6.rank)
  reducesTo_S1048576x6_S1048576_d1 : S1048576x6.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x6_0_1 : S1048576x1.BroadcastsInDim S1048576x6 (![0, 1] : Fin 2 → Fin S1048576x6.rank)
  bcast_S1048576x6_S1x1048576x6_1_2 : S1048576x6.BroadcastsInDim S1x1048576x6 (![1, 2] : Fin 2 → Fin S1x1048576x6.rank)
  dot_S1048576x25_S25x64_S1048576x64_1_0_0_1_n_n_wf : DotDims.WF S1048576x25 S25x64 S1048576x64 [1] [0] [0] [1] [] []
  dot_S1048576x64_S64x192_S1048576x192_1_0_0_1_n_n_wf : DotDims.WF S1048576x64 S64x192 S1048576x192 [1] [0] [0] [1] [] []
  dot_S1048576x64_S64x6_S1048576x6_1_0_0_1_n_n_wf : DotDims.WF S1048576x64 S64x6 S1048576x6 [1] [0] [0] [1] [] []

variable [Facts₀]

def dot_S1048576x25_S25x64_S1048576x64_1_0_0_1_n_n : DotDims S1048576x25 S25x64 S1048576x64 where
  lhsContracting := [1]
  rhsContracting := [0]
  lhsNonContracting := [0]
  rhsNonContracting := [1]
  lhsBatch := []
  rhsBatch := []
  wf := dot_S1048576x25_S25x64_S1048576x64_1_0_0_1_n_n_wf
def dot_S1048576x64_S64x192_S1048576x192_1_0_0_1_n_n : DotDims S1048576x64 S64x192 S1048576x192 where
  lhsContracting := [1]
  rhsContracting := [0]
  lhsNonContracting := [0]
  rhsNonContracting := [1]
  lhsBatch := []
  rhsBatch := []
  wf := dot_S1048576x64_S64x192_S1048576x192_1_0_0_1_n_n_wf
def dot_S1048576x64_S64x6_S1048576x6_1_0_0_1_n_n : DotDims S1048576x64 S64x6 S1048576x6 where
  lhsContracting := [1]
  rhsContracting := [0]
  lhsNonContracting := [0]
  rhsNonContracting := [1]
  lhsBatch := []
  rhsBatch := []
  wf := dot_S1048576x64_S64x6_S1048576x6_1_0_0_1_n_n_wf

class Facts : Prop extends Facts₀ where

variable [Facts]
-- ==== Proof.GruSpec.lean ====
/-
  One step of a gated recurrent unit with a linear layer before it and a softmax head after it, row by row.

  Every row of the batch is processed alone. For a row with input x (25 numbers) and previous state h (64 numbers):

    xp = x · Wp + bp                                  (64 numbers: the linear layer before the unit)
    gi = xp · Wi + bi,   gh = h · Wh + bh             (192 numbers each: three gates of 64, in the order r, z, n)
    r  = σ(gi_r + gh_r),  z = σ(gi_z + gh_z),  n = tanh(gi_n + r · gh_n)
    h' = (1 − z) · n + z · h                          (the new state)
    o  = softmax(h' · Wo + bo)                        (6 numbers)

  with σ(s) = 1 / (1 + e^(−s)) and softmax(l)_j = e^(l_j − m) / Σ_q e^(l_q − m), m the largest entry of l (taken from
  −∞, and once more against −∞). Everything is over the extended reals; each weight matrix is written as a function of
  (input coordinate, output coordinate), that is, already transposed the way the products use it. `G` is the whole
  result array [1, 1048576, 6] as this row function of the ten argument arrays.
-/
import Idealize.ShloMosaic.PureOps.Ideal
import Idealize.ShloMosaic.Lib.ValueIdx

noncomputable section

open scoped BigOperators

namespace Cert.GruStep

open Idealize.ShloMosaic Idealize.ShloMosaic.ValueIdx

/-- The word of the float 1.0. -/
abbrev one : EReal := Ideal.ofBits .f32 0x3F800000#32
/-- The word of the float −∞. -/
abbrev negInf : EReal := Ideal.ofBits .f32 0xFF800000#32

/-- The word 1.0 denotes the number 1. -/
theorem one_eq : one = 1 := by
  simp [one, Ideal.ofBits, Ideal.ieee, -EReal.coe_mul]; norm_num

/-- A vector times a matrix plus a bias, at output coordinate `n`. -/
def affine {K N : ℕ} (v : Fin K → EReal) (W : Fin K → Fin N → EReal) (b : Fin N → EReal) (n : Fin N) : EReal :=
  (∑ k : Fin K, v k * W k n) + b n

/-- Column `q` of the reset gate, of the update gate and of the candidate gate among the 192 gate columns. -/
def cR (q : Fin 64) : Fin 192 := ⟨0 + q.val, by have := q.isLt; omega⟩
def cZ (q : Fin 64) : Fin 192 := ⟨64 + q.val, by have := q.isLt; omega⟩
def cN (q : Fin 64) : Fin 192 := ⟨128 + q.val, by have := q.isLt; omega⟩

/-- The unit's new state at coordinate `q`, from the two gate vectors and the previous state. -/
def cell (gi gh : Fin 192 → EReal) (h : Fin 64 → EReal) (q : Fin 64) : EReal :=
  (one - Ideal.logistic (gi (cZ q) + gh (cZ q)))
      * Ideal.tanh (gi (cN q) + Ideal.logistic (gi (cR q) + gh (cR q)) * gh (cN q))
    + Ideal.logistic (gi (cZ q) + gh (cZ q)) * h q

/-- The largest of six entries, taken from −∞ and compared with −∞ once more. -/
def rowMax (l : Fin 6 → EReal) : EReal := max negInf ((Finset.univ : Finset (Fin 6)).fold max negInf l)

/-- The softmax of six entries at coordinate `j`. -/
def softmax (l : Fin 6 → EReal) (j : Fin 6) : EReal :=
  Ideal.div (Ideal.exp (l j - rowMax l)) (∑ q : Fin 6, Ideal.exp (l q - rowMax l))

/-- One row's result from the row's input, the row's previous state and the weights. -/
def rowOut (x : Fin 25 → EReal) (h : Fin 64 → EReal) (Wp : Fin 25 → Fin 64 → EReal) (bp : Fin 64 → EReal)
    (Wi Wh : Fin 64 → Fin 192 → EReal) (bi bh : Fin 192 → EReal) (Wo : Fin 64 → Fin 6 → EReal) (bo : Fin 6 → EReal) :
    Fin 6 → EReal :=
  softmax (affine (cell (affine (affine x Wp bp) Wi bi) (affine h Wh bh) h) Wo bo)

/-- The whole result array as a function of the ten argument arrays: entry (0, r, j) is row r's result at j. The weight
    matrices are stored [output, input], so the products read them transposed. -/
def G (x : (⟨2, ![1048576, 25]⟩ : Shape).Idx → EReal) (pw : (⟨2, ![64, 25]⟩ : Shape).Idx → EReal)
    (pb : (⟨1, ![64]⟩ : Shape).Idx → EReal) (wih whh : (⟨2, ![192, 64]⟩ : Shape).Idx → EReal)
    (bih bhh : (⟨1, ![192]⟩ : Shape).Idx → EReal) (ow : (⟨2, ![6, 64]⟩ : Shape).Idx → EReal)
    (ob : (⟨1, ![6]⟩ : Shape).Idx → EReal) (h0 : (⟨3, ![1, 1048576, 64]⟩ : Shape).Idx → EReal) :
    (⟨3, ![1, 1048576, 6]⟩ : Shape).Idx → EReal := fun i =>
  rowOut (fun a => x (ix2 (i 1) a)) (fun k => h0 (ix3 (0 : Fin 1) (i 1) k))
    (fun a k => pw (ix2 k a)) (fun k => pb (ix1 k))
    (fun k g => wih (ix2 g k)) (fun k g => whh (ix2 g k)) (fun g => bih (ix1 g)) (fun g => bhh (ix1 g))
    (fun k j => ow (ix2 j k)) (fun j => ob (ix1 j)) (i 2)

end Cert.GruStep

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibRowMax.lean ====
/-
  The largest entry of each row of a matrix, read at a row.

  A kernel takes the maximum over the last axis of an [a, c] matrix by a lane reduction from an accumulator word; the
  host takes it by a reduce whose body is the maximum, from an initial value held in a rank-0 array. Over the extended
  reals both are, at row p, the fold of `max` from the starting value over the c entries (p, q) of that row, in any
  order. Generic in a and c; the host form takes the witness that names the inserted coordinate as an argument.
-/
import Idealize.ShloMosaic.PureOps.Ideal.Laws
import Idealize.ShloMosaic.Lib.ValueIdx

noncomputable section

namespace Cert.LibRowMax

open Idealize.ShloMosaic Idealize.ShloMosaic.ValueIdx

/-- The index of row `p` with the column `q` put back is `(p, q)`. -/
theorem lift_last {a c : Nat} (h : (⟨2, ![a, c]⟩ : Shape).Reduces [1] ⟨1, ![a]⟩) (p : Fin a) (q : Fin c) :
    h.lift (ix1 p) q = ix2 p q :=
  funext fun ax => Fin.ext (by
    match ax with
    | ⟨0, _⟩ => rfl
    | ⟨1, _⟩ => rfl)

/-- A lane maximum over the last axis of [a, c], from the accumulator word `acc`, at row `p`. -/
theorem lane_max_last_apply {a c : Nat} (src : FVec Ideal ⟨2, ![a, c]⟩ .f32) (acc : BitVec 32)
    (h : (⟨2, ![a, c]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin c)).fold max (Ideal.ofBits .f32 acc) (fun q => src (ix2 p q)) := by
  refine (Ideal.multiReduction_maximumf_single src acc h hφ hacc (ix1 p)).trans ?_
  exact Finset.fold_congr fun q _ => congrArg src (lift_last h p q)

/-- The host's reduce with the maximum as its body over the last axis of [a, c], from the initial value `init`, at
    row `p`. -/
theorem host_max_last_apply {a c : Nat} {u : Shape} (x : FVec Ideal ⟨2, ![a, c]⟩ .f32) (init : FVec Ideal u .f32)
    (h' : (⟨2, ![a, c]⟩ : Shape).ReducesTo [1] ⟨1, ![a]⟩) (h : (⟨2, ![a, c]⟩ : Shape).Reduces [1] ⟨1, ![a]⟩)
    (hu : 0 < u.numel) (p : Fin a) :
    Host.reduce (FloatOps.maximumf (F := Ideal) (φ := .f32)) x init h' hu (ix1 p)
      = (Finset.univ : Finset (Fin c)).fold max (init (Shape.Idx.first hu)) (fun q => x (ix2 p q)) := by
  refine (Host.reduce_eq_fold_single (FloatOps.maximumf (F := Ideal) (φ := .f32)) x init h' h hu (ix1 p)).trans ?_
  exact Finset.fold_congr fun q _ => congrArg x (lift_last h p q)

end Cert.LibRowMax

end
-- ==== Proof.KernelRow.lean ====
/-
  One block of the kernel, row by row.

  The body works on a block of 2048 rows. Its result at row y of the block depends only on row y of the two
  row-tiled inputs and on the weights, and it is the row function of the specification:

  * each of the four matrix products starts from the zero matrix and is followed by adding a bias row, so at
    (y, n) it is Σ_k lhs(y, k) · W(k, n) + b(0, n);
  * the three gates are column ranges 0–63, 64–127 and 128–191 of the two 192-wide products;
  * the new state is pointwise in the gates, and the softmax of the six logits of a row takes the row's largest
    entry and the row's sum of exponentials, both kept as a column and repeated along the row.
-/
import proofs.«142264_j26663156973581_1_alg».proof.Proof.Gen.KernelIdeal.Skeleton
import proofs.«142264_j26663156973581_1_alg».proof.Proof.GruSpec
import proofs.«142264_j26663156973581_1_alg».proof.Proof.LibRows
import proofs.«142264_j26663156973581_1_alg».proof.Proof.LibMatmulPlain
import proofs.«142264_j26663156973581_1_alg».proof.Proof.LibRowMax
import Idealize.ShloMosaic.Lib.ValueLayout

noncomputable section

open scoped BigOperators

namespace Cert.KernelIdeal.RowValue

open Cert.KernelIdeal Cert.KernelIdeal.Gen Cert.GruStep Idealize.ShloMosaic Idealize.ShloMosaic.ValueIdx

/-! ## A product from the zero matrix plus a bias row -/

/-- At (p, q): the sum over the contracted axis of the operands' products, plus the bias row's entry q. -/
theorem biased_product_apply {M K N : Nat} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (matmul D prec lhs rhs (constant (F := Ideal) ⟨2, ![M, N]⟩ .f32 0x00000000#32)) (broadcastTo ⟨2, ![M, N]⟩ b hb) (ix2 p q)
      = (∑ k : Fin K, lhs (ix2 p k) * rhs (ix2 k q)) + b (ix2 (0 : Fin 1) q) := by
  rw [addf_apply, broadcastTo_1b_ab_apply]
  exact congrArg (· + _) (Cert.LibMatmulPlain.matmul_plain_zero_apply D hD prec lhs rhs p q)

variable (x0 : Vec Ideal S2048x25 .f32) (x1 : Vec Ideal S1x2048x64 .f32) (x2 : Vec Ideal S25x64 .bf16)
  (x3 : Vec Ideal S1x64 .f32) (x4 x5 : Vec Ideal S64x192 .bf16) (x6 x7 : Vec Ideal S1x192 .f32)
  (x8 : Vec Ideal S64x6 .bf16) (x9 : Vec Ideal S1x6 .f32)

/-! ## The two gate products of a block -/

/-- The input-side gates at (y, g): the row's input through the first linear layer, then through the gates' weights. -/
theorem gi_at (y : Fin 2048) (g : Fin 192) :
    k0_pay5 x0 x2 x3 x4 x6 (ix2 y g)
      = affine (affine (fun a => x0 (ix2 y a)) (fun a k => x2 (ix2 a k)) (fun k => x3 (ix2 (0 : Fin 1) k)))
          (fun k g => x4 (ix2 k g)) (fun g => x6 (ix2 (0 : Fin 1) g)) g := by
  unfold k0_pay5
  simp only [shapeCast_self]
  refine (biased_product_apply (φ₁ := .bf16) (φ₂ := .bf16) dot_S2048x64_S64x192_S2048x192_1_0_0_1_n_n rfl none _ x4 x6 _ y g).trans ?_
  unfold affine
  refine congrArg (· + _) (Finset.sum_congr rfl fun k _ => congrArg (· * _) ?_)
  exact biased_product_apply (φ₁ := .bf16) (φ₂ := .bf16) dot_S2048x25_S25x64_S2048x64_1_0_0_1_n_n rfl none _ x2 x3 _ y k

/-- The block of the previous state without its leading unit axis, at (y, k). -/
theorem hprev_at (y : Fin 2048) (k : Fin 64) : k0_pay2 x1 (ix2 y k) = x1 (ix3 (0 : Fin 1) y k) := by
  unfold k0_pay2
  exact shapeCast_1ab_ab_apply x1 _ y k

/-- The state-side gates at (y, g). -/
theorem gh_at (y : Fin 2048) (g : Fin 192) :
    k0_pay6 x1 x5 x7 (ix2 y g)
      = affine (fun k => x1 (ix3 (0 : Fin 1) y k)) (fun k g => x5 (ix2 k g)) (fun g => x7 (ix2 (0 : Fin 1) g)) g := by
  unfold k0_pay6
  simp only [shapeCast_self]
  refine (biased_product_apply (φ₁ := .bf16) (φ₂ := .bf16) dot_S2048x64_S64x192_S2048x192_1_0_0_1_n_n rfl none _ x5 x7 _ y g).trans ?_
  unfold affine
  refine congrArg (· + _) (Finset.sum_congr rfl fun k _ => congrArg (· * _) ?_)
  exact hprev_at x1 y k

/-- The three column ranges of the input-side gates and the first of the state-side gates. -/
theorem gi_r_at (y : Fin 2048) (q : Fin 64) : k0_pay7 x0 x2 x3 x4 x6 (ix2 y q) = k0_pay5 x0 x2 x3 x4 x6 (ix2 y (cR q)) := by
  unfold k0_pay7
  exact slice2_axis1_apply 0 _ _ y q (cR q) rfl
theorem gi_z_at (y : Fin 2048) (q : Fin 64) : k0_pay8 x0 x2 x3 x4 x6 (ix2 y q) = k0_pay5 x0 x2 x3 x4 x6 (ix2 y (cZ q)) := by
  unfold k0_pay8
  exact slice2_axis1_apply 64 _ _ y q (cZ q) rfl
theorem gi_n_at (y : Fin 2048) (q : Fin 64) : k0_pay9 x0 x2 x3 x4 x6 (ix2 y q) = k0_pay5 x0 x2 x3 x4 x6 (ix2 y (cN q)) := by
  unfold k0_pay9
  exact slice2_axis1_apply 128 _ _ y q (cN q) rfl
theorem gh_r_at (y : Fin 2048) (q : Fin 64) : k0_pay10 x1 x5 x7 (ix2 y q) = k0_pay6 x1 x5 x7 (ix2 y (cR q)) := by
  unfold k0_pay10
  exact slice2_axis1_apply 0 _ _ y q (cR q) rfl

/-! ## The rest of the body as three block functions -/

/-- The new state of a block from the gate blocks and the previous state. -/
def hidden (v3 : FVec Ideal S2048x64 .f32) (v30 : FVec Ideal S2048x192 .f32) (v31 v32 v33 v34 : FVec Ideal S2048x64 .f32) :
    FVec Ideal S2048x64 .f32 :=
  addf
    (mulf (subf (broadcast S2048x64 (Scalar.ofBits .f32 0x3F800000#32))
        (logistic (addf v32 (extractStridedSlice S2048x64 ![0, 64] v30 slices_S2048x192_o0_64_S2048x64))))
      (tanh (addf v33 (mulf (logistic (addf v31 v34)) (extractStridedSlice S2048x64 ![0, 128] v30 slices_S2048x192_o0_128_S2048x64)))))
    (mulf (logistic (addf v32 (extractStridedSlice S2048x64 ![0, 64] v30 slices_S2048x192_o0_64_S2048x64))) v3)

/-- The logits of a block from its new state. -/
def logitsV (hid : FVec Ideal S2048x64 .f32) (v18 : FVec Ideal S64x6 .bf16) (v20 : FVec Ideal S1x6 .f32) : FVec Ideal S2048x6 .f32 :=
  addf (matmul dot_S2048x64_S64x6_S2048x6_1_0_0_1_n_n none (truncf .bf16 hid bitsLt_bf16_f32) v18 (constant S2048x6 .f32 0x00000000#32))
    (broadcastTo S2048x6 v20 broadcasts_S1x6_S2048x6)

/-- Each row's largest logit, repeated along the row. -/
def maxCol (l : FVec Ideal S2048x6 .f32) : FVec Ideal S2048x6 .f32 :=
  broadcastTo S2048x6
    (shapeCast S2048x1
      (maximumf (broadcast S2048 (Scalar.ofBits .f32 0xFF800000#32))
        (multiReduction .maximumf [1] S2048 l 0xFF800000#32 reduces_S2048x6_S2048 (.inl rfl) rfl))
      shapeCasts_S2048_S2048x1)
    broadcasts_S2048x1_S2048x6

/-- The exponentials of the logits less their row's largest. -/
def expShift (l : FVec Ideal S2048x6 .f32) : FVec Ideal S2048x6 .f32 := exp (subf l (maxCol l))

/-- Each row's sum of those exponentials, repeated along the row. -/
def sumCol (l : FVec Ideal S2048x6 .f32) : FVec Ideal S2048x6 .f32 :=
  broadcastTo S2048x6
    (shapeCast S2048x1 (multiReduction .add [1] S2048 (expShift l) 0x00000000#32 reduces_S2048x6_S2048 (.inl rfl) rfl)
      shapeCasts_S2048_S2048x1)
    broadcasts_S2048x1_S2048x6

/-- The softmax of a block of logits, row by row. -/
def smaxV (l : FVec Ideal S2048x6 .f32) : FVec Ideal S2048x6 .f32 := divf (expShift l) (sumCol l)

/-- The body's stored value is the softmax of the logits of the new state, with a leading unit axis. -/
theorem stored_eq (v3 : FVec Ideal S2048x64 .f32) (v18 : FVec Ideal S64x6 .bf16) (v20 : FVec Ideal S1x6 .f32)
    (v30 : FVec Ideal S2048x192 .f32) (v31 v32 v33 v34 : FVec Ideal S2048x64 .f32) :
    k0_pay1 v3 v18 v20 v30 v31 v32 v33 v34
      = shapeCast S1x2048x6 (smaxV (logitsV (hidden v3 v30 v31 v32 v33 v34) v18 v20)) shapeCasts_S2048x6_S1x2048x6 := rfl

/-! ## The three block functions at a row -/

variable (y : Fin 2048)

/-- The new state at (y, q), given what the gate blocks and the previous state hold at row y. -/
theorem hidden_at (v3 : FVec Ideal S2048x64 .f32) (v30 : FVec Ideal S2048x192 .f32) (v31 v32 v33 v34 : FVec Ideal S2048x64 .f32)
    (gi gh : Fin 192 → EReal) (h : Fin 64 → EReal)
    (h3 : ∀ q, v3 (ix2 y q) = h q) (h30 : ∀ g, v30 (ix2 y g) = gh g) (h31 : ∀ q, v31 (ix2 y q) = gi (cR q))
    (h32 : ∀ q, v32 (ix2 y q) = gi (cZ q)) (h33 : ∀ q, v33 (ix2 y q) = gi (cN q)) (h34 : ∀ q, v34 (ix2 y q) = gh (cR q))
    (q : Fin 64) : hidden v3 v30 v31 v32 v33 v34 (ix2 y q) = cell gi gh h q := by
  have e64 : extractStridedSlice S2048x64 ![0, 64] v30 slices_S2048x192_o0_64_S2048x64 (ix2 y q) = gh (cZ q) :=
    (slice2_axis1_apply 64 v30 _ y q (cZ q) rfl).trans (h30 _)
  have e128 : extractStridedSlice S2048x64 ![0, 128] v30 slices_S2048x192_o0_128_S2048x64 (ix2 y q) = gh (cN q) :=
    (slice2_axis1_apply 128 v30 _ y q (cN q) rfl).trans (h30 _)
  show (Ideal.ofBits .f32 0x3F800000#32
          - Ideal.logistic (v32 (ix2 y q) + extractStridedSlice S2048x64 ![0, 64] v30 slices_S2048x192_o0_64_S2048x64 (ix2 y q)))
        * Ideal.tanh (v33 (ix2 y q)
            + Ideal.logistic (v31 (ix2 y q) + v34 (ix2 y q))
              * extractStridedSlice S2048x64 ![0, 128] v30 slices_S2048x192_o0_128_S2048x64 (ix2 y q))
      + Ideal.logistic (v32 (ix2 y q) + extractStridedSlice S2048x64 ![0, 64] v30 slices_S2048x192_o0_64_S2048x64 (ix2 y q))
        * v3 (ix2 y q) = _
  rw [e64, e128, h3, h31, h32, h33, h34]
  rfl

/-- The logits at (y, j): the row's new state through the head's weights. -/
theorem logits_at (hid : FVec Ideal S2048x64 .f32) (v18 : FVec Ideal S64x6 .bf16) (v20 : FVec Ideal S1x6 .f32) (j : Fin 6) :
    logitsV hid v18 v20 (ix2 y j)
      = affine (fun k => hid (ix2 y k)) (fun k j => v18 (ix2 k j)) (fun j => v20 (ix2 (0 : Fin 1) j)) j :=
  biased_product_apply (φ₁ := .bf16) (φ₂ := .bf16) dot_S2048x64_S64x6_S2048x6_1_0_0_1_n_n rfl none
    (truncf .bf16 hid bitsLt_bf16_f32) v18 v20 broadcasts_S1x6_S2048x6 y j

/-- Along row y the repeated column holds the row's largest logit. -/
theorem maxCol_at (l : FVec Ideal S2048x6 .f32) (q : Fin 6) : maxCol l (ix2 y q) = rowMax (fun q => l (ix2 y q)) := by
  unfold maxCol rowMax
  rw [Cert.LibRows.bcast_col_apply, Cert.LibRows.col_cast_apply, maximumf_apply, broadcast_apply]
  exact congrArg (max _) (Cert.LibRowMax.lane_max_last_apply l 0xFF800000#32 reduces_S2048x6_S2048 _ _ y)

theorem expShift_at (l : FVec Ideal S2048x6 .f32) (q : Fin 6) :
    expShift l (ix2 y q) = Ideal.exp (l (ix2 y q) - rowMax (fun q => l (ix2 y q))) := by
  show Ideal.exp (l (ix2 y q) - maxCol l (ix2 y q)) = _
  rw [maxCol_at]

/-- Along row y the repeated column holds the row's sum of exponentials. -/
theorem sumCol_at (l : FVec Ideal S2048x6 .f32) (q : Fin 6) :
    sumCol l (ix2 y q) = ∑ q' : Fin 6, Ideal.exp (l (ix2 y q') - rowMax (fun q => l (ix2 y q))) := by
  unfold sumCol
  rw [Cert.LibRows.bcast_col_apply, Cert.LibRows.col_cast_apply]
  refine (Cert.LibRows.lane_sum_last_apply (expShift l) reduces_S2048x6_S2048 _ _ y).trans ?_
  exact Finset.sum_congr rfl fun q' _ => expShift_at y l q'

/-- The block's softmax at (y, j) is the softmax of row y's six logits. -/
theorem smax_at (l : FVec Ideal S2048x6 .f32) (j : Fin 6) : smaxV l (ix2 y j) = softmax (fun q => l (ix2 y q)) j := by
  show Ideal.div (expShift l (ix2 y j)) (sumCol l (ix2 y j)) = _
  rw [expShift_at, sumCol_at]
  rfl

/-- The stored value at (0, y, j), given what its eight operands hold at row y. -/
theorem stored_at (v3 : FVec Ideal S2048x64 .f32) (v18 : FVec Ideal S64x6 .bf16) (v20 : FVec Ideal S1x6 .f32)
    (v30 : FVec Ideal S2048x192 .f32) (v31 v32 v33 v34 : FVec Ideal S2048x64 .f32)
    (gi gh : Fin 192 → EReal) (h : Fin 64 → EReal) (Wo : Fin 64 → Fin 6 → EReal) (bo : Fin 6 → EReal)
    (h3 : ∀ q, v3 (ix2 y q) = h q) (h30 : ∀ g, v30 (ix2 y g) = gh g) (h31 : ∀ q, v31 (ix2 y q) = gi (cR q))
    (h32 : ∀ q, v32 (ix2 y q) = gi (cZ q)) (h33 : ∀ q, v33 (ix2 y q) = gi (cN q)) (h34 : ∀ q, v34 (ix2 y q) = gh (cR q))
    (h18 : ∀ k j, v18 (ix2 k j) = Wo k j) (h20 : ∀ j, v20 (ix2 (0 : Fin 1) j) = bo j) (j : Fin 6) :
    k0_pay1 v3 v18 v20 v30 v31 v32 v33 v34 (ix3 (0 : Fin 1) y j) = softmax (affine (cell gi gh h) Wo bo) j := by
  rw [stored_eq, shapeCast_ab_1ab_apply, smax_at]
  refine congrArg (softmax · j) (funext fun q => ?_)
  rw [logits_at]
  unfold affine
  beta_reduce
  rw [h20]
  refine congrArg (· + _) (Finset.sum_congr rfl fun k _ => ?_)
  rw [hidden_at y v3 v30 v31 v32 v33 v34 gi gh h h3 h30 h31 h32 h33 h34 k, h18]

/-- ONE BLOCK: the body's stored value at (0, y, j) is the row function of row y of the two row-tiled blocks and of
    the weight blocks. -/
theorem block_at (j : Fin 6) :
    k0_pay1 (k0_pay2 x1) (k0_pay3 x8) (k0_pay4 x9) (k0_pay6 x1 x5 x7) (k0_pay7 x0 x2 x3 x4 x6) (k0_pay8 x0 x2 x3 x4 x6)
        (k0_pay9 x0 x2 x3 x4 x6) (k0_pay10 x1 x5 x7) (ix3 (0 : Fin 1) y j)
      = rowOut (fun a => x0 (ix2 y a)) (fun k => x1 (ix3 (0 : Fin 1) y k)) (fun a k => x2 (ix2 a k))
          (fun k => x3 (ix2 (0 : Fin 1) k)) (fun k g => x4 (ix2 k g)) (fun k g => x5 (ix2 k g))
          (fun g => x6 (ix2 (0 : Fin 1) g)) (fun g => x7 (ix2 (0 : Fin 1) g)) (fun k j => x8 (ix2 k j))
          (fun j => x9 (ix2 (0 : Fin 1) j)) j := by
  unfold rowOut
  exact stored_at y _ _ _ _ _ _ _ _ _ _ _ _ _
    (fun q => hprev_at x1 y q) (fun g => gh_at x1 x5 x7 y g)
    (fun q => (gi_r_at x0 x2 x3 x4 x6 y q).trans (gi_at x0 x2 x3 x4 x6 y (cR q)))
    (fun q => (gi_z_at x0 x2 x3 x4 x6 y q).trans (gi_at x0 x2 x3 x4 x6 y (cZ q)))
    (fun q => (gi_n_at x0 x2 x3 x4 x6 y q).trans (gi_at x0 x2 x3 x4 x6 y (cN q)))
    (fun q => (gh_r_at x1 x5 x7 y q).trans (gh_at x1 x5 x7 y (cR q)))
    (fun k j => by unfold k0_pay3; rw [shapeCast_self]) (fun j => by unfold k0_pay4; rw [shapeCast_self]) j

end Cert.KernelIdeal.RowValue

end
-- ==== Proof.GruSpecAt.lean ====
/-
  Two facts about the specification used on both sides: its array at an index whose row and column are named, and
  that the row function depends only on the values of its pieces.
-/
import proofs.«142264_j26663156973581_1_alg».proof.Proof.GruSpec

noncomputable section

namespace Cert.GruStep

open Idealize.ShloMosaic Idealize.ShloMosaic.ValueIdx

/-- Entry i of the specification's array, with i's row and column named. -/
theorem G_row (X0 : (⟨2, ![1048576, 25]⟩ : Shape).Idx → EReal) (X1 : (⟨2, ![64, 25]⟩ : Shape).Idx → EReal)
    (X2 : (⟨1, ![64]⟩ : Shape).Idx → EReal) (X3 X4 : (⟨2, ![192, 64]⟩ : Shape).Idx → EReal)
    (X5 X6 : (⟨1, ![192]⟩ : Shape).Idx → EReal) (X7 : (⟨2, ![6, 64]⟩ : Shape).Idx → EReal)
    (X8 : (⟨1, ![6]⟩ : Shape).Idx → EReal) (X9 : (⟨3, ![1, 1048576, 64]⟩ : Shape).Idx → EReal)
    (i : (⟨3, ![1, 1048576, 6]⟩ : Shape).Idx) (r : Fin 1048576) (j : Fin 6) (hr : (i 1).val = r.val) (hj : (i 2).val = j.val) :
    G X0 X1 X2 X3 X4 X5 X6 X7 X8 X9 i
      = rowOut (fun a => X0 (ix2 r a)) (fun k => X9 (ix3 (0 : Fin 1) r k)) (fun a k => X1 (ix2 k a)) (fun k => X2 (ix1 k))
          (fun k g => X3 (ix2 g k)) (fun k g => X4 (ix2 g k)) (fun g => X5 (ix1 g)) (fun g => X6 (ix1 g))
          (fun k j => X7 (ix2 j k)) (fun j => X8 (ix1 j)) j := by
  have e1 : i 1 = r := Fin.ext hr
  have e2 : i 2 = j := Fin.ext hj
  unfold G
  rw [e1, e2]

/-- The row function of equal pieces is equal. -/
theorem rowOut_congr {x x' : Fin 25 → EReal} {h h' : Fin 64 → EReal} {Wp Wp' : Fin 25 → Fin 64 → EReal} {bp bp' : Fin 64 → EReal}
    {Wi Wi' Wh Wh' : Fin 64 → Fin 192 → EReal} {bi bi' bh bh' : Fin 192 → EReal} {Wo Wo' : Fin 64 → Fin 6 → EReal}
    {bo bo' : Fin 6 → EReal} (e0 : ∀ a, x a = x' a) (e1 : ∀ k, h k = h' k) (e2 : ∀ a k, Wp a k = Wp' a k)
    (e3 : ∀ k, bp k = bp' k) (e4 : ∀ k g, Wi k g = Wi' k g) (e5 : ∀ k g, Wh k g = Wh' k g) (e6 : ∀ g, bi g = bi' g)
    (e7 : ∀ g, bh g = bh' g) (e8 : ∀ k j, Wo k j = Wo' k j) (e9 : ∀ j, bo j = bo' j) (j : Fin 6) :
    rowOut x h Wp bp Wi Wh bi bh Wo bo j = rowOut x' h' Wp' bp' Wi' Wh' bi' bh' Wo' bo' j := by
  obtain rfl : x = x' := funext e0
  obtain rfl : h = h' := funext e1
  obtain rfl : Wp = Wp' := funext fun a => funext (e2 a)
  obtain rfl : bp = bp' := funext e3
  obtain rfl : Wi = Wi' := funext fun k => funext (e4 k)
  obtain rfl : Wh = Wh' := funext fun k => funext (e5 k)
  obtain rfl : bi = bi' := funext e6
  obtain rfl : bh = bh' := funext e7
  obtain rfl : Wo = Wo' := funext fun k => funext (e8 k)
  obtain rfl : bo = bo' := funext e9
  rfl

end Cert.GruStep

end
-- ==== Proof.KernelBlocks.lean ====
/-
  From the kernel's blocks to its whole result array.

  The grid has 512 points. Point t works on rows 2048·t … 2048·t + 2047: the input's block and the previous state's
  block at t are those rows, the eight weight windows are whole arrays at every point, and the output's block at t is
  rows 2048·t … of the result. The weight arrays the windows read were written by the host before the call: each
  weight matrix transposed, each bias vector given a leading unit axis. So what point t writes back is block t of the
  specification's array `G` of the ten arguments, the 512 blocks cover every row (row r lies in block r / 2048), and
  after the run the result array is `G`.
-/
import proofs.«142264_j26663156973581_1_alg».proof.Proof.Gen.KernelIdeal.Value
import proofs.«142264_j26663156973581_1_alg».proof.Proof.KernelRow
import proofs.«142264_j26663156973581_1_alg».proof.Proof.GruSpecAt
import Idealize.ShloMosaic.Lib.StableHlo.Run

noncomputable section

open scoped BigOperators

namespace Cert.KernelIdeal.ArrayValue

open Cert.KernelIdeal Cert.KernelIdeal.Gen Cert.GruStep Idealize.ShloMosaic Idealize.ShloMosaic.TcCoe Idealize.SL.Sem
open Idealize.ShloMosaic.ValueIdx
open Idealize.ShloMosaic.Pipeline (Dat)

/-! ## The body's stored value at any index of a block -/

/-- The body's stored value at any index of the block, with the index's row and column read off. -/
theorem block_at_idx (x0 : Vec Ideal S2048x25 .f32) (x1 : Vec Ideal S1x2048x64 .f32) (x2 : Vec Ideal S25x64 .bf16)
    (x3 : Vec Ideal S1x64 .f32) (x4 x5 : Vec Ideal S64x192 .bf16) (x6 x7 : Vec Ideal S1x192 .f32)
    (x8 : Vec Ideal S64x6 .bf16) (x9 : Vec Ideal S1x6 .f32) (i : S1x2048x6.Idx) :
    k0_pay1 (k0_pay2 x1) (k0_pay3 x8) (k0_pay4 x9) (k0_pay6 x1 x5 x7) (k0_pay7 x0 x2 x3 x4 x6) (k0_pay8 x0 x2 x3 x4 x6)
        (k0_pay9 x0 x2 x3 x4 x6) (k0_pay10 x1 x5 x7) i
      = rowOut (fun a => x0 (ix2 (i 1) a)) (fun k => x1 (ix3 (0 : Fin 1) (i 1) k)) (fun a k => x2 (ix2 a k))
          (fun k => x3 (ix2 (0 : Fin 1) k)) (fun k g => x4 (ix2 k g)) (fun k g => x5 (ix2 k g))
          (fun g => x6 (ix2 (0 : Fin 1) g)) (fun g => x7 (ix2 (0 : Fin 1) g)) (fun k j => x8 (ix2 k j))
          (fun j => x9 (ix2 (0 : Fin 1) j)) (i 2) := by
  obtain ⟨u, y, j, rfl⟩ : ∃ (u : Fin 1) (y : Fin 2048) (j : Fin 6), i = ix3 u y j := ⟨i 0, i 1, i 2, eq_ix3 i⟩
  obtain rfl : u = 0 := Subsingleton.elim _ _
  exact RowValue.block_at x0 x1 x2 x3 x4 x5 x6 x7 x8 x9 y j

variable (m : (ℓ : Loc nD τ sig) → Buf (Elt Ideal) ℓ) (ρ : Dev nD → PrngReg)

/-! ## The windows' block indices over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- The three row-tiled windows sit at block t along the row axis and at block 0 elsewhere. -/
theorem idx_tiled : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_10.index t (0 : Fin 3) = 0 ∧ win0_10.index t (1 : Fin 3) = t.val ∧ win0_10.index t (2 : Fin 3) = 0 :=
  (by decide +kernel : ∀ t : Fin grid0.N, _)

/-- The eight weight windows sit at block 0 at every point. -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem point_lt (t : Fin cfg0.N) : t.val < 512 := lt_of_lt_of_eq t.isLt N_0

/-- Row y of block t is row 2048·t + y of the array. -/
def row (t : Fin cfg0.N) (y : Fin 2048) : Fin 1048576 :=
  ⟨t.val * 2048 + y.val, by have := point_lt t; have := y.isLt; omega⟩

/-! ## What the host wrote before the call -/

/-- The four weight matrices reach their windows transposed, the four bias vectors with a leading unit axis. -/
theorem V_pre_w (c : Dev nD) : (V m c main_v1 : S25x64.Idx → EReal)
    = (truncf (F := Ideal) .bf16 (transpose S25x64 [1, 0] (m ((c : Thread nD τ).loc main_arg1)) transposes_S64x25_S25x64_1_0) bitsLt_bf16_f32 : S25x64.Idx → EReal) := by
  dsimp only [V, hostOps0]; after_results
theorem V_w_ih (c : Dev nD) : (V m c main_v3 : S64x192.Idx → EReal)
    = (truncf (F := Ideal) .bf16 (transpose S64x192 [1, 0] (m ((c : Thread nD τ).loc main_arg3)) transposes_S192x64_S64x192_1_0) bitsLt_bf16_f32 : S64x192.Idx → EReal) := by
  dsimp only [V, hostOps0]; after_results
theorem V_w_hh (c : Dev nD) : (V m c main_v5 : S64x192.Idx → EReal)
    = (truncf (F := Ideal) .bf16 (transpose S64x192 [1, 0] (m ((c : Thread nD τ).loc main_arg4)) transposes_S192x64_S64x192_1_0) bitsLt_bf16_f32 : S64x192.Idx → EReal) := by
  dsimp only [V, hostOps0]; after_results
theorem V_out_w (c : Dev nD) : (V m c main_v7 : S64x6.Idx → EReal)
    = (truncf (F := Ideal) .bf16 (transpose S64x6 [1, 0] (m ((c : Thread nD τ).loc main_arg7)) transposes_S6x64_S64x6_1_0) bitsLt_bf16_f32 : S64x6.Idx → EReal) := by
  dsimp only [V, hostOps0]; after_results
theorem V_pre_b (c : Dev nD) : (V m c main_v8 : S1x64.Idx → EReal) = shapeCast S1x64 (m ((c : Thread nD τ).loc main_arg2)) shapeCasts_S64_S1x64 := by
  dsimp only [V, hostOps0]; after_results; rfl
theorem V_b_ih (c : Dev nD) : (V m c main_v9 : S1x192.Idx → EReal) = shapeCast S1x192 (m ((c : Thread nD τ).loc main_arg5)) shapeCasts_S192_S1x192 := by
  dsimp only [V, hostOps0]; after_results; rfl
theorem V_b_hh (c : Dev nD) : (V m c main_v10 : S1x192.Idx → EReal) = shapeCast S1x192 (m ((c : Thread nD τ).loc main_arg6)) shapeCasts_S192_S1x192 := by
  dsimp only [V, hostOps0]; after_results; rfl
theorem V_out_b (c : Dev nD) : (V m c main_v11 : S1x6.Idx → EReal) = shapeCast S1x6 (m ((c : Thread nD τ).loc main_arg8)) shapeCasts_S6_S1x6 := by
  dsimp only [V, hostOps0]; after_results; rfl

/-! ## Each window's block at point t, read at an index -/

theorem blk0_at (c : Dev nD) (t : Fin cfg0.N) (y : Fin 2048) (a : Fin 25) :
    iblk m c 0 t (ix2 y a) = (m ((c : Thread nD τ).loc main_arg0)) (ix2 (row t y) a) := by
  obtain ⟨e0, e1, -⟩ := idx_tiled t
  show V m c main_arg0 (((cfg0.win 0).blk t).view.emb (ix2 y a)) = _
  rw [V_main_arg0]
  refine congrArg _ (funext fun ax => Fin.ext ?_)
  match ax with
  | ⟨0, _⟩ => show win0_0.index t (0 : Fin 2) * 2048 + 1 * y.val = t.val * 2048 + y.val; rw [e0]; omega
  | ⟨1, _⟩ => show win0_0.index t (1 : Fin 2) * 25 + 1 * a.val = a.val; rw [e1]; omega

theorem blk1_at (c : Dev nD) (t : Fin cfg0.N) (y : Fin 2048) (k : Fin 64) :
    iblk m c 1 t (ix3 (0 : Fin 1) y k) = (m ((c : Thread nD τ).loc main_arg9)) (ix3 (0 : Fin 1) (row t y) k) := by
  obtain ⟨-, -, e0, e1, e2, -⟩ := idx_tiled t
  show V m c main_arg9 (((cfg0.win 1).blk t).view.emb (ix3 (0 : Fin 1) y k)) = _
  rw [V_main_arg9]
  refine congrArg _ (funext fun ax => Fin.ext ?_)
  match ax with
  | ⟨0, _⟩ => show win0_1.index t (0 : Fin 3) * 1 + 1 * 0 = 0; rw [e0]
  | ⟨1, _⟩ => show win0_1.index t (1 : Fin 3) * 2048 + 1 * y.val = t.val * 2048 + y.val; rw [e1]; omega
  | ⟨2, _⟩ => show win0_1.index t (2 : Fin 3) * 64 + 1 * k.val = k.val; rw [e2]; omega

/-- A window whose block is its whole array, at block 0 on both axes, reads the array at the same index. -/
theorem blk2_at (c : Dev nD) (t : Fin cfg0.N) (a : Fin 25) (k : Fin 64) :
    iblk m c 2 t (ix2 a k) = (m ((c : Thread nD τ).loc main_arg1)) (ix2 k a) := by
  obtain ⟨⟨e0, e1⟩, -⟩ := idx_whole t
  show V m c main_v1 (((cfg0.win 2).blk t).view.emb (ix2 a k)) = _
  rw [show ((cfg0.win 2).blk t).view.emb (ix2 a k) = ix2 a k from funext fun ax => Fin.ext (by
    match ax with
    | ⟨0, _⟩ => show win0_2.index t (0 : Fin 2) * 25 + 1 * a.val = a.val; rw [e0]; omega
    | ⟨1, _⟩ => show win0_2.index t (1 : Fin 2) * 64 + 1 * k.val = k.val; rw [e1]; omega), V_pre_w]
  exact transpose_ix2_apply _ _ a k

theorem blk3_at (c : Dev nD) (t : Fin cfg0.N) (k : Fin 64) :
    iblk m c 3 t (ix2 (0 : Fin 1) k) = (m ((c : Thread nD τ).loc main_arg2)) (ix1 k) := by
  obtain ⟨-, ⟨e0, e1⟩, -⟩ := idx_whole t
  show V m c main_v8 (((cfg0.win 3).blk t).view.emb (ix2 (0 : Fin 1) k)) = _
  rw [show ((cfg0.win 3).blk t).view.emb (ix2 (0 : Fin 1) k) = ix2 (0 : Fin 1) k from funext fun ax => Fin.ext (by
    match ax with
    | ⟨0, _⟩ => show win0_3.index t (0 : Fin 2) * 1 + 1 * 0 = 0; rw [e0]
    | ⟨1, _⟩ => show win0_3.index t (1 : Fin 2) * 64 + 1 * k.val = k.val; rw [e1]; omega), V_pre_b]
  exact shapeCast_a_1a_apply _ _ 0 k

theorem blk4_at (c : Dev nD) (t : Fin cfg0.N) (k : Fin 64) (g : Fin 192) :
    iblk m c 4 t (ix2 k g) = (m ((c : Thread nD τ).loc main_arg3)) (ix2 g k) := by
  obtain ⟨-, -, ⟨e0, e1⟩, -⟩ := idx_whole t
  show V m c main_v3 (((cfg0.win 4).blk t).view.emb (ix2 k g)) = _
  rw [show ((cfg0.win 4).blk t).view.emb (ix2 k g) = ix2 k g from funext fun ax => Fin.ext (by
    match ax with
    | ⟨0, _⟩ => show win0_4.index t (0 : Fin 2) * 64 + 1 * k.val = k.val; rw [e0]; omega
    | ⟨1, _⟩ => show win0_4.index t (1 : Fin 2) * 192 + 1 * g.val = g.val; rw [e1]; omega), V_w_ih]
  exact transpose_ix2_apply _ _ k g

theorem blk5_at (c : Dev nD) (t : Fin cfg0.N) (k : Fin 64) (g : Fin 192) :
    iblk m c 5 t (ix2 k g) = (m ((c : Thread nD τ).loc main_arg4)) (ix2 g k) := by
  obtain ⟨-, -, -, ⟨e0, e1⟩, -⟩ := idx_whole t
  show V m c main_v5 (((cfg0.win 5).blk t).view.emb (ix2 k g)) = _
  rw [show ((cfg0.win 5).blk t).view.emb (ix2 k g) = ix2 k g from funext fun ax => Fin.ext (by
    match ax with
    | ⟨0, _⟩ => show win0_5.index t (0 : Fin 2) * 64 + 1 * k.val = k.val; rw [e0]; omega
    | ⟨1, _⟩ => show win0_5.index t (1 : Fin 2) * 192 + 1 * g.val = g.val; rw [e1]; omega), V_w_hh]
  exact transpose_ix2_apply _ _ k g

theorem blk6_at (c : Dev nD) (t : Fin cfg0.N) (g : Fin 192) :
    iblk m c 6 t (ix2 (0 : Fin 1) g) = (m ((c : Thread nD τ).loc main_arg5)) (ix1 g) := by
  obtain ⟨-, -, -, -, ⟨e0, e1⟩, -⟩ := idx_whole t
  show V m c main_v9 (((cfg0.win 6).blk t).view.emb (ix2 (0 : Fin 1) g)) = _
  rw [show ((cfg0.win 6).blk t).view.emb (ix2 (0 : Fin 1) g) = ix2 (0 : Fin 1) g from funext fun ax => Fin.ext (by
    match ax with
    | ⟨0, _⟩ => show win0_6.index t (0 : Fin 2) * 1 + 1 * 0 = 0; rw [e0]
    | ⟨1, _⟩ => show win0_6.index t (1 : Fin 2) * 192 + 1 * g.val = g.val; rw [e1]; omega), V_b_ih]
  exact shapeCast_a_1a_apply _ _ 0 g

theorem blk7_at (c : Dev nD) (t : Fin cfg0.N) (g : Fin 192) :
    iblk m c 7 t (ix2 (0 : Fin 1) g) = (m ((c : Thread nD τ).loc main_arg6)) (ix1 g) := by
  obtain ⟨-, -, -, -, -, ⟨e0, e1⟩, -⟩ := idx_whole t
  show V m c main_v10 (((cfg0.win 7).blk t).view.emb (ix2 (0 : Fin 1) g)) = _
  rw [show ((cfg0.win 7).blk t).view.emb (ix2 (0 : Fin 1) g) = ix2 (0 : Fin 1) g from funext fun ax => Fin.ext (by
    match ax with
    | ⟨0, _⟩ => show win0_7.index t (0 : Fin 2) * 1 + 1 * 0 = 0; rw [e0]
    | ⟨1, _⟩ => show win0_7.index t (1 : Fin 2) * 192 + 1 * g.val = g.val; rw [e1]; omega), V_b_hh]
  exact shapeCast_a_1a_apply _ _ 0 g

theorem blk8_at (c : Dev nD) (t : Fin cfg0.N) (k : Fin 64) (j : Fin 6) :
    iblk m c 8 t (ix2 k j) = (m ((c : Thread nD τ).loc main_arg7)) (ix2 j k) := by
  obtain ⟨-, -, -, -, -, -, ⟨e0, e1⟩, -⟩ := idx_whole t
  show V m c main_v7 (((cfg0.win 8).blk t).view.emb (ix2 k j)) = _
  rw [show ((cfg0.win 8).blk t).view.emb (ix2 k j) = ix2 k j from funext fun ax => Fin.ext (by
    match ax with
    | ⟨0, _⟩ => show win0_8.index t (0 : Fin 2) * 64 + 1 * k.val = k.val; rw [e0]; omega
    | ⟨1, _⟩ => show win0_8.index t (1 : Fin 2) * 6 + 1 * j.val = j.val; rw [e1]; omega), V_out_w]
  exact transpose_ix2_apply _ _ k j

theorem blk9_at (c : Dev nD) (t : Fin cfg0.N) (j : Fin 6) :
    iblk m c 9 t (ix2 (0 : Fin 1) j) = (m ((c : Thread nD τ).loc main_arg8)) (ix1 j) := by
  obtain ⟨-, -, -, -, -, -, -, e0, e1⟩ := idx_whole t
  show V m c main_v11 (((cfg0.win 9).blk t).view.emb (ix2 (0 : Fin 1) j)) = _
  rw [show ((cfg0.win 9).blk t).view.emb (ix2 (0 : Fin 1) j) = ix2 (0 : Fin 1) j from funext fun ax => Fin.ext (by
    match ax with
    | ⟨0, _⟩ => show win0_9.index t (0 : Fin 2) * 1 + 1 * 0 = 0; rw [e0]
    | ⟨1, _⟩ => show win0_9.index t (1 : Fin 2) * 6 + 1 * j.val = j.val; rw [e1]; omega), V_out_b]
  exact shapeCast_a_1a_apply _ _ 0 j

/-! ## What a point writes back, the cover, the run -/

/-- The result array the specification gives for the launch memory on core c. -/
abbrev spec (c : Dev nD) : S1x1048576x6.Idx → EReal := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- WHAT POINT t WRITES BACK is block t of the specification's array. -/
theorem flushed_eq (c : Dev nD) (t : Fin cfg0.N) :
    (dats m 0 c).flushed 10 t = ((cfg0.win 10).blk t).view.read (Elt Ideal) (spec m c) := by
  rw [Value.flushed10]
  unfold out0_10
  rw [View.canon_unit_zero hz3]
  simp only [View.ld_unit_zero (S := S2048x25) hz2, View.ld_unit_zero (S := S1x2048x64) hz3, View.ld_unit_zero (S := S25x64) hz2,
    View.ld_unit_zero (S := S1x64) hz2, View.ld_unit_zero (S := S64x192) hz2, View.ld_unit_zero (S := S1x192) hz2,
    View.ld_unit_zero (S := S64x6) hz2, View.ld_unit_zero (S := S1x6) hz2]
  obtain ⟨-, -, -, -, -, e0, e1, e2⟩ := idx_tiled t
  funext jj
  show k0_pay1 (k0_pay2 (iblk m c 1 t)) (k0_pay3 (iblk m c 8 t)) (k0_pay4 (iblk m c 9 t)) (k0_pay6 (iblk m c 1 t) (iblk m c 5 t) (iblk m c 7 t)) (k0_pay7 (iblk m c 0 t) (iblk m c 2 t) (iblk m c 3 t) (iblk m c 4 t) (iblk m c 6 t)) (k0_pay8 (iblk m c 0 t) (iblk m c 2 t) (iblk m c 3 t) (iblk m c 4 t) (iblk m c 6 t)) (k0_pay9 (iblk m c 0 t) (iblk m c 2 t) (iblk m c 3 t) (iblk m c 4 t) (iblk m c 6 t)) (k0_pay10 (iblk m c 1 t) (iblk m c 5 t) (iblk m c 7 t)) jj = spec m c (((cfg0.win 10).blk t).view.emb jj)
  refine (block_at_idx (iblk m c 0 t) (iblk m c 1 t) (iblk m c 2 t) (iblk m c 3 t) (iblk m c 4 t) (iblk m c 5 t) (iblk m c 6 t) (iblk m c 7 t) (iblk m c 8 t) (iblk m c 9 t) jj).trans ?_
  refine Eq.trans ?_ (G_row _ _ _ _ _ _ _ _ _ _ (((cfg0.win 10).blk t).view.emb jj) (row t (jj 1)) (jj 2) ?_ ?_).symm
  · exact rowOut_congr (fun a => blk0_at m c t (jj 1) a) (fun k => blk1_at m c t (jj 1) k) (fun a k => blk2_at m c t a k)
      (fun k => blk3_at m c t k) (fun k g => blk4_at m c t k g) (fun k g => blk5_at m c t k g) (fun g => blk6_at m c t g)
      (fun g => blk7_at m c t g) (fun k j => blk8_at m c t k j) (fun j => blk9_at m c t j) (jj 2)
  · show win0_10.index t (1 : Fin 3) * 2048 + 1 * (jj 1).val = t.val * 2048 + (jj 1).val
    rw [e1]; omega
  · show win0_10.index t (2 : Fin 3) * 6 + 1 * (jj 2).val = (jj 2).val
    rw [e2]; omega

/-- An index of the result array is in point t's block iff each coordinate is in the block's range on its axis. -/
theorem mem_blk (t : Fin cfg0.N) (i : S1x1048576x6.Idx) :
    i ∈ ((cfg0.win 10).blk t).view.set ↔ ∀ a : Fin 3, win0_10.index t a * S1x2048x6.size a ≤ (i a).val
      ∧ (i a).val < win0_10.index t a * S1x2048x6.size a + S1x2048x6.size a := by
  show i ∈ ((View.whole main_v12).slice (win0_10.rect t)).set ↔ _
  rw [View.set_slice_whole, Rect.mem_set_unit]
  exact Iff.rfl

/-- THE COVER: row r of the result lies in the block of point r / 2048. -/
theorem cover (i : S1x1048576x6.Idx) :
    ∃ t : Fin cfg0.N, (cfg0.win 10).flush t = true ∧ i ∈ ((cfg0.win 10).blk t).view.set := by
  have h0 : (i 0).val < 1 := (i 0).isLt
  have h1 : (i 1).val < 1048576 := (i 1).isLt
  have h2 : (i 2).val < 6 := (i 2).isLt
  obtain ⟨t, ht⟩ : ∃ t : Fin cfg0.N, t.val = (i 1).val / 2048 :=
    ⟨⟨(i 1).val / 2048, by rw [show cfg0.N = 512 from N_0]; omega⟩, rfl⟩
  obtain ⟨-, -, -, -, -, e0, e1, e2⟩ := idx_tiled t
  refine ⟨t, flush0_10 t, ?_⟩
  rw [mem_blk]
  intro a
  match a with
  | ⟨0, _⟩ =>
    show win0_10.index t (0 : Fin 3) * 1 ≤ (i 0).val ∧ (i 0).val < win0_10.index t (0 : Fin 3) * 1 + 1
    rw [e0]; omega
  | ⟨1, _⟩ =>
    show win0_10.index t (1 : Fin 3) * 2048 ≤ (i 1).val ∧ (i 1).val < win0_10.index t (1 : Fin 3) * 2048 + 2048
    rw [e1, ht]; omega
  | ⟨2, _⟩ =>
    show win0_10.index t (2 : Fin 3) * 6 ≤ (i 2).val ∧ (i 2).val < win0_10.index t (2 : Fin 3) * 6 + 6
    rw [e2]; omega

/-- THE RESULT ARRAY after the run is the specification's. -/
theorem final (c : Dev nD) : (dats m 0 c).arrAt 10 cfg0.N = spec m c :=
  (dats m 0 c).arrAt_eq_of_cover 10 (spec m c) (fun t _ => flushed_eq m c t) cover

/-- THE KERNEL'S RUN: every weakly fair execution ends with the result array at the specification's function of the
    arguments, and the arguments unchanged. -/
theorem run : θ_run defs (onTc (τ := τ) (main (F := Ideal))) ⟨m, fun _ => 0, ρ⟩ fun r => ∀ c : Dev nD,
      r.2.mem ((c : Thread nD τ).loc main_v12) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.ArrayValue

end
-- ==== Proof.RefLinear.lean ====
/-
  The reference's three linear layers, row by row.

  The host program works on all 1048576 rows at once. Read one operation at a time at row r: each transpose puts a
  weight matrix [input, output], each `dot_general` is a sum over the contracted coordinate, and a bias vector is
  repeated down the rows. So the first layer at (r, k), and the two gate products at (r, g), are the specification's
  affine maps of row r's input and of row r's previous state.
-/
import proofs.«142264_j26663156973581_1_alg».proof.Proof.Gen.ReferenceIdeal.Read
import proofs.«142264_j26663156973581_1_alg».proof.Proof.GruSpec

noncomputable section

open scoped BigOperators

namespace Cert.ReferenceIdeal.RowValue

open Cert.ReferenceIdeal Cert.ReferenceIdeal.Read Cert.GruStep Idealize.ShloMosaic Idealize.ShloMosaic.ValueIdx

/-! ## Indices with equal coordinates are equal -/

theorem idx1_ext {n : Nat} (i j : (⟨1, ![n]⟩ : Shape).Idx) (h0 : (i 0).val = (j 0).val) : i = j :=
  funext fun a => Fin.ext (by match a with | ⟨0, _⟩ => exact h0)
theorem idx2_ext {n0 n1 : Nat} (i j : (⟨2, ![n0, n1]⟩ : Shape).Idx) (h0 : (i 0).val = (j 0).val) (h1 : (i 1).val = (j 1).val) :
    i = j :=
  funext fun a => Fin.ext (by match a with | ⟨0, _⟩ => exact h0 | ⟨1, _⟩ => exact h1)
theorem idx3_ext {n0 n1 n2 : Nat} (i j : (⟨3, ![n0, n1, n2]⟩ : Shape).Idx) (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

variable (x0 : (⟨S1048576x25, .f32⟩ : BufTy).Contents (Elt Ideal)) (x1 : (⟨S64x25, .f32⟩ : BufTy).Contents (Elt Ideal))
  (x2 : (⟨S64, .f32⟩ : BufTy).Contents (Elt Ideal)) (x3 x4 : (⟨S192x64, .f32⟩ : BufTy).Contents (Elt Ideal))
  (x5 x6 : (⟨S192, .f32⟩ : BufTy).Contents (Elt Ideal)) (x7 : (⟨S6x64, .f32⟩ : BufTy).Contents (Elt Ideal))
  (x8 : (⟨S6, .f32⟩ : BufTy).Contents (Elt Ideal)) (x9 : (⟨S1x1048576x64, .f32⟩ : BufTy).Contents (Elt Ideal))
  (r : Fin 1048576)

/-! ## Row r's pieces, as the specification names them -/

/-- Row r's input through the first linear layer. -/
abbrev xp : Fin 64 → EReal := affine (fun a => x0 (ix2 r a)) (fun a k => x1 (ix2 k a)) (fun k => x2 (ix1 k))
/-- Row r's previous state. -/
abbrev hr : Fin 64 → EReal := fun k => x9 (ix3 (0 : Fin 1) r k)
/-- Row r's input-side and state-side gates. -/
abbrev gi : Fin 192 → EReal := affine (xp x0 x1 x2 r) (fun k g => x3 (ix2 g k)) (fun g => x5 (ix1 g))
abbrev gh : Fin 192 → EReal := affine (hr x9 r) (fun k g => x4 (ix2 g k)) (fun g => x6 (ix1 g))
/-- Row r's new state and logits. -/
abbrev hn : Fin 64 → EReal := cell (gi x0 x1 x2 x3 x5 r) (gh x4 x6 x9 r) (hr x9 r)
abbrev lg : Fin 6 → EReal := affine (hn x0 x1 x2 x3 x4 x5 x6 x9 r) (fun k j => x7 (ix2 j k)) (fun j => x8 (ix1 j))

/-! ## The three linear layers -/

theorem xp_at (k : Fin 64) : val_main_v4 (F := Ideal) x0 x1 x2 (ix2 r k) = xp x0 x1 x2 r k := by
  rw [val_main_v4_apply, val_main_v1_apply, val_main_v3_apply, val_main_v2_apply]
  refine congrArg₂ (· + ·) (Finset.sum_congr rfl fun a _ => ?_) (congrArg x2 (idx1_ext _ _ rfl))
  rw [val_main_v0_apply]
  exact congrArg₂ (· * ·) (congrArg x0 (idx2_ext _ _ rfl rfl)) (congrArg x1 (idx2_ext _ _ rfl rfl))

theorem gi_at (g : Fin 192) : val_main_v10 (F := Ideal) x0 x1 x2 x3 x5 (ix2 r g) = gi x0 x1 x2 x3 x5 r g := by
  rw [val_main_v10_apply, val_main_v7_apply, val_main_v9_apply, val_main_v8_apply]
  refine congrArg₂ (· + ·) (Finset.sum_congr rfl fun k _ => ?_) (congrArg x5 (idx1_ext _ _ rfl))
  rw [val_main_v6_apply, show lidx_main_v7 (ix2 r g) k = ix2 r k from idx2_ext _ _ rfl rfl, xp_at]
  exact congrArg₂ (· * ·) rfl (congrArg x3 (idx2_ext _ _ rfl rfl))

theorem hr_at (k : Fin 64) : val_main_v5 (F := Ideal) x9 (ix2 r k) = hr x9 r k := by
  rw [val_main_v5_apply]
  refine congrArg x9 (idx3_ext _ _ rfl ?_ ?_)
  · show (r.val * 64 + k.val) / 64 % 1048576 = r.val
    have := r.isLt; have := k.isLt; omega
  · show (r.val * 64 + k.val) % 64 = k.val
    have := k.isLt; omega

theorem gh_at (g : Fin 192) : val_main_v15 (F := Ideal) x4 x6 x9 (ix2 r g) = gh x4 x6 x9 r g := by
  rw [val_main_v15_apply, val_main_v12_apply, val_main_v14_apply, val_main_v13_apply]
  refine congrArg₂ (· + ·) (Finset.sum_congr rfl fun k _ => ?_) (congrArg x6 (idx1_ext _ _ rfl))
  rw [val_main_v11_apply, show lidx_main_v12 (ix2 r g) k = ix2 r k from idx2_ext _ _ rfl rfl, hr_at]
  exact congrArg₂ (· * ·) rfl (congrArg x4 (idx2_ext _ _ rfl rfl))

end Cert.ReferenceIdeal.RowValue

end
-- ==== Proof.RefCell.lean ====
/-
  The reference's unit, row by row.

  The gates are the three column ranges of the two 192-wide products; the sigmoid is spelt 1 / (1 + e^(−s)) with the
  word 1.0, which denotes 1, so it is the sigmoid; the new state is pointwise in the gates and the previous state.
-/
import proofs.«142264_j26663156973581_1_alg».proof.Proof.RefLinear

noncomputable section

open scoped BigOperators

namespace Cert.ReferenceIdeal.RowValue

open Cert.ReferenceIdeal Cert.ReferenceIdeal.Read Cert.GruStep Idealize.ShloMosaic Idealize.ShloMosaic.ValueIdx

/-- The sigmoid spelt with the word 1.0 is the sigmoid. -/
theorem sigmoid_spelt (s : EReal) : Ideal.div one (one + Ideal.exp (-s)) = Ideal.logistic s := by
  rw [one_eq]; rfl

variable (x0 : (⟨S1048576x25, .f32⟩ : BufTy).Contents (Elt Ideal)) (x1 : (⟨S64x25, .f32⟩ : BufTy).Contents (Elt Ideal))
  (x2 : (⟨S64, .f32⟩ : BufTy).Contents (Elt Ideal)) (x3 x4 : (⟨S192x64, .f32⟩ : BufTy).Contents (Elt Ideal))
  (x5 x6 : (⟨S192, .f32⟩ : BufTy).Contents (Elt Ideal)) (x7 : (⟨S6x64, .f32⟩ : BufTy).Contents (Elt Ideal))
  (x8 : (⟨S6, .f32⟩ : BufTy).Contents (Elt Ideal)) (x9 : (⟨S1x1048576x64, .f32⟩ : BufTy).Contents (Elt Ideal))
  (r : Fin 1048576)

/-! ## The gates' column ranges and the constant 1.0 -/

theorem gi_r_at (q : Fin 64) : val_main_v16 (F := Ideal) x0 x1 x2 x3 x5 (ix2 r q) = gi x0 x1 x2 x3 x5 r (cR q) := by
  rw [val_main_v16_apply, show idx_main_v16 (ix2 r q) = ix2 r (cR q) from idx2_ext _ _ rfl (Nat.zero_add _).symm, gi_at]
theorem gi_z_at (q : Fin 64) : val_main_v17 (F := Ideal) x0 x1 x2 x3 x5 (ix2 r q) = gi x0 x1 x2 x3 x5 r (cZ q) := by
  rw [val_main_v17_apply, show idx_main_v17 (ix2 r q) = ix2 r (cZ q) from idx2_ext _ _ rfl rfl, gi_at]
theorem gi_n_at (q : Fin 64) : val_main_v18 (F := Ideal) x0 x1 x2 x3 x5 (ix2 r q) = gi x0 x1 x2 x3 x5 r (cN q) := by
  rw [val_main_v18_apply, show idx_main_v18 (ix2 r q) = ix2 r (cN q) from idx2_ext _ _ rfl rfl, gi_at]
theorem gh_r_at (q : Fin 64) : val_main_v19 (F := Ideal) x4 x6 x9 (ix2 r q) = gh x4 x6 x9 r (cR q) := by
  rw [val_main_v19_apply, show idx_main_v19 (ix2 r q) = ix2 r (cR q) from idx2_ext _ _ rfl (Nat.zero_add _).symm, gh_at]
theorem gh_z_at (q : Fin 64) : val_main_v20 (F := Ideal) x4 x6 x9 (ix2 r q) = gh x4 x6 x9 r (cZ q) := by
  rw [val_main_v20_apply, show idx_main_v20 (ix2 r q) = ix2 r (cZ q) from idx2_ext _ _ rfl rfl, gh_at]
theorem gh_n_at (q : Fin 64) : val_main_v21 (F := Ideal) x4 x6 x9 (ix2 r q) = gh x4 x6 x9 r (cN q) := by
  rw [val_main_v21_apply, show idx_main_v21 (ix2 r q) = ix2 r (cN q) from idx2_ext _ _ rfl rfl, gh_at]

theorem one25 (i : S1048576x64.Idx) : val_main_v25 (F := Ideal) i = one := val_main_v25_apply i
theorem one27 (i : S1048576x64.Idx) : val_main_v27 (F := Ideal) i = one := val_main_v27_apply i
theorem one32 (i : S1048576x64.Idx) : val_main_v32 (F := Ideal) i = one := val_main_v32_apply i
theorem one34 (i : S1048576x64.Idx) : val_main_v34 (F := Ideal) i = one := val_main_v34_apply i
theorem one39 (i : S1048576x64.Idx) : val_main_v39 (F := Ideal) i = one := val_main_v39_apply i

/-! ## The unit -/

theorem r_at (q : Fin 64) :
    val_main_v28 (F := Ideal) x0 x1 x2 x3 x4 x5 x6 x9 (ix2 r q) = Ideal.logistic (gi x0 x1 x2 x3 x5 r (cR q) + gh x4 x6 x9 r (cR q)) := by
  show Ideal.div (val_main_v27 (F := Ideal) (ix2 r q))
      (val_main_v25 (F := Ideal) (ix2 r q) + Ideal.exp (-(val_main_v16 (F := Ideal) x0 x1 x2 x3 x5 (ix2 r q) + val_main_v19 (F := Ideal) x4 x6 x9 (ix2 r q)))) = _
  rw [one27, one25, gi_r_at, gh_r_at]
  exact sigmoid_spelt _

theorem z_at (q : Fin 64) :
    val_main_v35 (F := Ideal) x0 x1 x2 x3 x4 x5 x6 x9 (ix2 r q) = Ideal.logistic (gi x0 x1 x2 x3 x5 r (cZ q) + gh x4 x6 x9 r (cZ q)) := by
  show Ideal.div (val_main_v34 (F := Ideal) (ix2 r q))
      (val_main_v32 (F := Ideal) (ix2 r q) + Ideal.exp (-(val_main_v17 (F := Ideal) x0 x1 x2 x3 x5 (ix2 r q) + val_main_v20 (F := Ideal) x4 x6 x9 (ix2 r q)))) = _
  rw [one34, one32, gi_z_at, gh_z_at]
  exact sigmoid_spelt _

theorem hn_at (q : Fin 64) : val_main_v43 (F := Ideal) x0 x1 x2 x3 x4 x5 x6 x9 (ix2 r q) = hn x0 x1 x2 x3 x4 x5 x6 x9 r q := by
  show (val_main_v39 (F := Ideal) (ix2 r q) - val_main_v35 (F := Ideal) x0 x1 x2 x3 x4 x5 x6 x9 (ix2 r q))
        * Ideal.tanh (val_main_v18 (F := Ideal) x0 x1 x2 x3 x5 (ix2 r q) + val_main_v28 (F := Ideal) x0 x1 x2 x3 x4 x5 x6 x9 (ix2 r q) * val_main_v21 (F := Ideal) x4 x6 x9 (ix2 r q))
      + val_main_v35 (F := Ideal) x0 x1 x2 x3 x4 x5 x6 x9 (ix2 r q) * val_main_v5 (F := Ideal) x9 (ix2 r q) = _
  rw [one39, z_at, r_at, gi_n_at, gh_n_at, hr_at]
  rfl

end Cert.ReferenceIdeal.RowValue

end
-- ==== Proof.RefHead.lean ====
/-
  The reference's head, row by row.

  The logits of row r are the affine map of the row's new state. The largest logit of a row is a fold of `max` from
  −∞ over the row's six entries, taken once more against −∞ and repeated along the row; the sum of the exponentials
  starts from the word 0.0, which denotes 0.
-/
import proofs.«142264_j26663156973581_1_alg».proof.Proof.RefCell
import proofs.«142264_j26663156973581_1_alg».proof.Proof.LibRowMax

noncomputable section

open scoped BigOperators

namespace Cert.ReferenceIdeal.RowValue

open Cert.ReferenceIdeal Cert.ReferenceIdeal.Gen Cert.ReferenceIdeal.Read Cert.GruStep Idealize.ShloMosaic Idealize.ShloMosaic.ValueIdx

variable (x0 : (⟨S1048576x25, .f32⟩ : BufTy).Contents (Elt Ideal)) (x1 : (⟨S64x25, .f32⟩ : BufTy).Contents (Elt Ideal))
  (x2 : (⟨S64, .f32⟩ : BufTy).Contents (Elt Ideal)) (x3 x4 : (⟨S192x64, .f32⟩ : BufTy).Contents (Elt Ideal))
  (x5 x6 : (⟨S192, .f32⟩ : BufTy).Contents (Elt Ideal)) (x7 : (⟨S6x64, .f32⟩ : BufTy).Contents (Elt Ideal))
  (x8 : (⟨S6, .f32⟩ : BufTy).Contents (Elt Ideal)) (x9 : (⟨S1x1048576x64, .f32⟩ : BufTy).Contents (Elt Ideal))
  (r : Fin 1048576)

/-! ## The head -/

theorem lg_at (j : Fin 6) : val_main_v48 (F := Ideal) x0 x1 x2 x3 x4 x5 x6 x7 x8 x9 (ix2 r j) = lg x0 x1 x2 x3 x4 x5 x6 x7 x8 x9 r j := by
  rw [val_main_v48_apply, val_main_v45_apply, val_main_v47_apply, val_main_v46_apply]
  refine congrArg₂ (· + ·) (Finset.sum_congr rfl fun k _ => ?_) (congrArg x8 (idx1_ext _ _ rfl))
  rw [val_main_v44_apply, show lidx_main_v45 (ix2 r j) k = ix2 r k from idx2_ext _ _ rfl rfl, hn_at]
  exact congrArg₂ (· * ·) rfl (congrArg x7 (idx2_ext _ _ rfl rfl))

/-- Dropping the last axis of [1048576, 6] leaves [1048576]. -/
theorem red_last : S1048576x6.Reduces [1] S1048576 := by decide

/-- The host's maximum over row r's six logits, from −∞. -/
theorem max49_at : val_main_v49 (F := Ideal) x0 x1 x2 x3 x4 x5 x6 x7 x8 x9 (ix1 r) = (Finset.univ : Finset (Fin 6)).fold max negInf (lg x0 x1 x2 x3 x4 x5 x6 x7 x8 x9 r) := by
  unfold val_main_v49
  refine (Cert.LibRowMax.host_max_last_apply (val_main_v48 (F := Ideal) x0 x1 x2 x3 x4 x5 x6 x7 x8 x9) (val_main_cst_4 (F := Ideal))
    reducesTo_S1048576x6_S1048576_d1 red_last h_S_ r).trans ?_
  exact Finset.fold_congr fun q _ => lg_at x0 x1 x2 x3 x4 x5 x6 x7 x8 x9 r q

/-- The row's largest logit: that maximum, compared with −∞ once more. -/
theorem max_at : val_main_v51 (F := Ideal) x0 x1 x2 x3 x4 x5 x6 x7 x8 x9 (ix1 r) = rowMax (lg x0 x1 x2 x3 x4 x5 x6 x7 x8 x9 r) := by
  rw [val_main_v51_apply, val_main_v50_apply, max49_at]
  rfl

theorem maxrep_at (q : Fin 6) : val_main_v53 (F := Ideal) x0 x1 x2 x3 x4 x5 x6 x7 x8 x9 (ix2 r q) = rowMax (lg x0 x1 x2 x3 x4 x5 x6 x7 x8 x9 r) := by
  rw [val_main_v53_apply, val_main_v52_apply,
    show idx_main_v52 (idx_main_v53 (ix2 r q)) = ix1 r from idx1_ext _ _ rfl, max_at]

theorem exp_at (q : Fin 6) :
    val_main_v55 (F := Ideal) x0 x1 x2 x3 x4 x5 x6 x7 x8 x9 (ix2 r q)
      = Ideal.exp (lg x0 x1 x2 x3 x4 x5 x6 x7 x8 x9 r q - rowMax (lg x0 x1 x2 x3 x4 x5 x6 x7 x8 x9 r)) := by
  show Ideal.exp (val_main_v48 (F := Ideal) x0 x1 x2 x3 x4 x5 x6 x7 x8 x9 (ix2 r q) - val_main_v53 (F := Ideal) x0 x1 x2 x3 x4 x5 x6 x7 x8 x9 (ix2 r q)) = _
  rw [lg_at, maxrep_at]

theorem sumrep_at (q : Fin 6) :
    val_main_v58 (F := Ideal) x0 x1 x2 x3 x4 x5 x6 x7 x8 x9 (ix2 r q)
      = ∑ q' : Fin 6, Ideal.exp (lg x0 x1 x2 x3 x4 x5 x6 x7 x8 x9 r q' - rowMax (lg x0 x1 x2 x3 x4 x5 x6 x7 x8 x9 r)) := by
  rw [val_main_v58_apply, val_main_v57_apply, val_main_v56_apply]
  show Ideal.ofBits .f32 0x00000000#32 + _ = _
  rw [Ideal.ofBits_zero_f32, zero_add]
  refine Finset.sum_congr rfl fun q' _ => ?_
  rw [show idx_main_v56 (idx_main_v57 (idx_main_v58 (ix2 r q))) q' = ix2 r q' from idx2_ext _ _ rfl rfl, exp_at]

end Cert.ReferenceIdeal.RowValue

end
-- ==== Proof.RefResult.lean ====
/-
  The reference's whole result.

  At (0, r, j) the last operations divide row r's exponential at j by the row's sum of exponentials: the softmax of
  the row's logits, which is the specification's row function of row r.
-/
import proofs.«142264_j26663156973581_1_alg».proof.Proof.RefHead
import proofs.«142264_j26663156973581_1_alg».proof.Proof.GruSpecAt

noncomputable section

open scoped BigOperators

namespace Cert.ReferenceIdeal.RowValue

open Cert.ReferenceIdeal Cert.ReferenceIdeal.Read Cert.GruStep Idealize.ShloMosaic Idealize.ShloMosaic.ValueIdx

variable (x0 : (⟨S1048576x25, .f32⟩ : BufTy).Contents (Elt Ideal)) (x1 : (⟨S64x25, .f32⟩ : BufTy).Contents (Elt Ideal))
  (x2 : (⟨S64, .f32⟩ : BufTy).Contents (Elt Ideal)) (x3 x4 : (⟨S192x64, .f32⟩ : BufTy).Contents (Elt Ideal))
  (x5 x6 : (⟨S192, .f32⟩ : BufTy).Contents (Elt Ideal)) (x7 : (⟨S6x64, .f32⟩ : BufTy).Contents (Elt Ideal))
  (x8 : (⟨S6, .f32⟩ : BufTy).Contents (Elt Ideal)) (x9 : (⟨S1x1048576x64, .f32⟩ : BufTy).Contents (Elt Ideal))

/-- The softmax at j, written out: the exponential at j over the sum of the exponentials, each taken after the
    largest entry is subtracted. -/
theorem softmax_eq (l : Fin 6 → EReal) (j : Fin 6) :
    Ideal.div (Ideal.exp (l j - rowMax l)) (∑ q' : Fin 6, Ideal.exp (l q' - rowMax l)) = softmax l j := rfl

/-- The result at (u, r, j) is the softmax of row r's logits at j. -/
theorem result_at (r : Fin 1048576) (u : Fin 1) (j : Fin 6) :
    val_main_v60 (F := Ideal) x0 x1 x2 x3 x4 x5 x6 x7 x8 x9 (ix3 u r j) = softmax (lg x0 x1 x2 x3 x4 x5 x6 x7 x8 x9 r) j := by
  rw [val_main_v60_apply, show idx_main_v60 (ix3 u r j) = ix2 r j from idx2_ext _ _ rfl rfl]
  have h1 : val_main_v55 (F := Ideal) x0 x1 x2 x3 x4 x5 x6 x7 x8 x9 (ix2 r j) = Ideal.exp (lg x0 x1 x2 x3 x4 x5 x6 x7 x8 x9 r j - rowMax (lg x0 x1 x2 x3 x4 x5 x6 x7 x8 x9 r)) := exp_at x0 x1 x2 x3 x4 x5 x6 x7 x8 x9 r j
  have h2 : val_main_v58 (F := Ideal) x0 x1 x2 x3 x4 x5 x6 x7 x8 x9 (ix2 r j) = ∑ q' : Fin 6, Ideal.exp (lg x0 x1 x2 x3 x4 x5 x6 x7 x8 x9 r q' - rowMax (lg x0 x1 x2 x3 x4 x5 x6 x7 x8 x9 r)) := sumrep_at x0 x1 x2 x3 x4 x5 x6 x7 x8 x9 r j
  rw [val_main_v59_apply, Ideal.hostDivf_def, h1, h2]
  exact softmax_eq _ j

/-- THE REFERENCE'S RESULT is the specification's array. -/
theorem result_eq : val_main_v60 (F := Ideal) x0 x1 x2 x3 x4 x5 x6 x7 x8 x9 = G x0 x1 x2 x3 x4 x5 x6 x7 x8 x9 := by
  funext i
  obtain ⟨u, r, j, rfl⟩ : ∃ (u : Fin 1) (r : Fin 1048576) (j : Fin 6), i = ix3 u r j := ⟨i 0, i 1, i 2, eq_ix3 i⟩
  refine (result_at x0 x1 x2 x3 x4 x5 x6 x7 x8 x9 r u j).trans ?_
  exact (G_row x0 x1 x2 x3 x4 x5 x6 x7 x8 x9 (ix3 u r j) r j rfl rfl).symm

end Cert.ReferenceIdeal.RowValue

end
-- ==== Proof.lean ====
/-
  A single step of a gated recurrent unit on 1048576 rows — a linear layer, the unit's three gates, the new state, and a
  softmax over six outputs — as a kernel that works on blocks of 2048 rows, against the same step written with whole
  arrays. Over the extended reals the two agree entry by entry.

  Both programs compute, for every row r on its own, one function of row r of the input, row r of the previous state
  and the weights (GruSpec: `rowOut`, and `G` for the whole [1, 1048576, 6] result):

    xp = x·Wp + bp,   gi = xp·Wi + bi,   gh = h·Wh + bh,
    r = σ(gi_r + gh_r),  z = σ(gi_z + gh_z),  n = tanh(gi_n + r·gh_n),  h' = (1 − z)·n + z·h,
    o = softmax(h'·Wo + bo).

  The kernel side: every product starts from the zero matrix, so with its bias row it is the affine map at a row; the
  changes of float format are the identity; `tpu.logistic` is the sigmoid; the lane maximum and the lane sum of a row
  are the fold of `max` and the sum over the row's six entries (KernelRow). Grid point t reads rows 2048·t … of the two
  row-tiled inputs and the whole weight arrays, which the host transposed (or gave a unit axis) before the call, and
  writes rows 2048·t … of the result; the 512 blocks cover the array (KernelBlocks).
  The reference side: one operation at a time at a row (RefLinear, RefCell, RefHead, RefResult); its sigmoid is spelt
  1 / (1 + e^(−s)) with the word 1.0, which is the number 1.
  No step uses distributivity or cancellation: the two sides apply the same operations in the same order to the same
  numbers, so the inputs' finiteness is never needed. The kernel's idealization rewrote nothing (`preserves` is `True`).
-/
import proofs.«142264_j26663156973581_1_alg».proof.Defs
import proofs.«142264_j26663156973581_1_alg».proof.Proof.Gen.Kernel
import proofs.«142264_j26663156973581_1_alg».proof.Proof.Gen.Kernel.Skeleton
import proofs.«142264_j26663156973581_1_alg».proof.Proof.Gen.Kernel.Launch
import proofs.«142264_j26663156973581_1_alg».proof.Proof.Gen.Kernel.Points
import proofs.«142264_j26663156973581_1_alg».proof.Proof.Gen.Kernel.Frame
import proofs.«142264_j26663156973581_1_alg».proof.Proof.Gen.KernelIdeal
import proofs.«142264_j26663156973581_1_alg».proof.Proof.Gen.KernelIdeal.Skeleton
import proofs.«142264_j26663156973581_1_alg».proof.Proof.Gen.KernelIdeal.Launch
import proofs.«142264_j26663156973581_1_alg».proof.Proof.Gen.KernelIdeal.Points
import proofs.«142264_j26663156973581_1_alg».proof.Proof.Gen.KernelIdeal.Frame
import proofs.«142264_j26663156973581_1_alg».proof.Proof.Gen.ReferenceIdeal
import proofs.«142264_j26663156973581_1_alg».proof.Proof.Gen.Pre_finite_inputs
import proofs.«142264_j26663156973581_1_alg».proof.Proof.Gen.KernelIdeal.Value
import proofs.«142264_j26663156973581_1_alg».proof.Proof.Gen.ReferenceIdeal.Run
import proofs.«142264_j26663156973581_1_alg».proof.Proof.Gen.ReferenceIdeal.Read
import proofs.«142264_j26663156973581_1_alg».proof.Proof.KernelBlocks
import proofs.«142264_j26663156973581_1_alg».proof.Proof.RefResult
import Idealize.ShloMosaic.Adequacy
import Idealize.ShloMosaic.Init

noncomputable section

namespace Cert.Proof

open Idealize.ShloMosaic Idealize.SL.Sem

/-- The three programs run and leave their arguments as they were: the two kernels by their launch and body, the
    reference by its run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the ten arguments the kernel's result array and the reference's are both the
    specification's array `G` of those arguments. -/
theorem algebraic : Cert.algebraic_KernelIdeal_ReferenceIdeal := by
  intro m ρ m' ρ' _ hagree
  refine ⟨fun c => Cert.KernelIdeal.ArrayValue.spec m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v60_eq, Cert.ReferenceIdeal.RowValue.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
